-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg9 : FVec F S3x128x128 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  main_v38

def fn_part1 {F : FTy → Type} [FloatOps F] (main_arg6 : FVec F S128 .f32) (main_arg7 : FVec F S3x128x128 .f32) (main_arg8 : FVec F S3x128 .f32) (main_arg9 : FVec F S3x128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S3x128x128 .f32) (main_arg8 : FVec F S3x128 .f32) (main_arg9 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S2000x128 : Shape := ⟨2, ![2000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S2000x1 : Shape := ⟨2, ![2000, 1]⟩

abbrev nBuf : Space → Nat
  | .hbm => 92
  | .vmem => 41
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S3x128x128, .f32⟩
  | .hbm, ⟨10, _⟩ => ⟨S1x128, .f32⟩
  | .hbm, ⟨11, _⟩ => ⟨S1x128, .f32⟩
  | .hbm, ⟨12, _⟩ => ⟨S50000x128, .bf16⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S1x128x128, .f32⟩
  | .hbm, ⟨45, _⟩ => ⟨S128x128, .f32⟩
  | .hbm, ⟨46, _⟩ => ⟨S1x128, .f32⟩
  | .hbm, ⟨47, _⟩ => ⟨S50000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128x128, .f32⟩
  | .hbm, ⟨63, _⟩ => ⟨S128x128, .f32⟩
  | .hbm, ⟨64, _⟩ => ⟨S1x128, .f32⟩
  | .hbm, ⟨65, _⟩ => ⟨S128, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S50000x128, .bf16⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .bf16⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S1x128x128, .f32⟩
  | .hbm, ⟨85, _⟩ => ⟨S128x128, .f32⟩
  | .hbm, ⟨86, _⟩ => ⟨S1x128, .f32⟩
  | .hbm, ⟨87, _⟩ => ⟨S128, .f32⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .bf16⟩
  | .local _ .vmem, ⟨7, _⟩ => ⟨S2000x128, .bf16⟩
  | .local _ .vmem, ⟨8, _⟩ => ⟨S2000x128, .bf16⟩
  | .local _ .vmem, ⟨9, _⟩ => ⟨S2000x128, .bf16⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S2000x128, .bf16⟩
  | .local _ .vmem, ⟨29, _⟩ => ⟨S2000x128, .bf16⟩
  | .local _ .vmem, ⟨30, _⟩ => ⟨S2000x128, .bf16⟩
  | .local _ .vmem, ⟨31, _⟩ => ⟨S2000x128, .bf16⟩
  | .local _ .vmem, ⟨32, _⟩ => ⟨S2000x128, .f32⟩
  | .local _ .vmem, ⟨33, _⟩ => ⟨S2000x128, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S2000x128, .f32⟩
  | .local _ .vmem, ⟨40, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S2000x128_S128x128_S2000x128_1_0_0_1_n_n_wf : DotDims.WF S2000x128 S128x128 S2000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .bf16 = 32 ∨ (Rect.block (s := S50000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v30) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128x128 : Shape := ⟨3, ![1, 128, 128]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S3x128x128, .f32⟩
  | 10 => ⟨S50000x128, .f32⟩
  | 11 => ⟨S1x128, .f32⟩
  | 12 => ⟨S50000x128, .f32⟩
  | 13 => ⟨S50000x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128x128, .f32⟩
  | 53 => ⟨S128x128, .f32⟩
  | 54 => ⟨S50000x128, .f32⟩
  | 55 => ⟨S50000x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .f32⟩
  | 79 => ⟨S800000, .f32⟩
  | 80 => ⟨S_, .f32⟩
  | 81 => ⟨S50000, .f32⟩
  | 82 => ⟨S800000x1, .i32⟩
  | 83 => ⟨S50000, .f32⟩
  | 84 => ⟨S_, .f32⟩
  | 85 => ⟨S50000, .f32⟩
  | 86 => ⟨S50000, .f32⟩
  | 87 => ⟨S50000x1, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S_, .f32⟩
  | 125 => ⟨S800000, .f32⟩
  | 126 => ⟨S_, .f32⟩
  | 127 => ⟨S50000, .f32⟩
  | _ => ⟨S50000x128, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128x128, .f32⟩
  | 17 => ⟨S128x128, .f32⟩
  | 18 => ⟨S50000x128, .f32⟩
  | 19 => ⟨S50000x128, .f32⟩
  | 20 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v40 : Ref sig .tc := ⟨.hbm, 64, rfl⟩
abbrev main_c_4 : Ref sig .tc := ⟨.hbm, 65, rfl⟩
abbrev main_v41 : Ref sig .tc := ⟨.hbm, 66, rfl⟩
abbrev main_v42 : Ref sig .tc := ⟨.hbm, 67, rfl⟩
abbrev main_c_5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v72 : Ref sig .tc := ⟨.hbm, 110, rfl⟩
abbrev main_c_10 : Ref sig .tc := ⟨.hbm, 111, rfl⟩
abbrev main_v73 : Ref sig .tc := ⟨.hbm, 112, rfl⟩
abbrev main_v74 : Ref sig .tc := ⟨.hbm, 113, rfl⟩
abbrev main_c_11 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_12 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_13 : Ref sig .tc := ⟨.hbm, 124, rfl⟩
abbrev main_v83 : Ref sig .tc := ⟨.hbm, 125, rfl⟩
abbrev main_cst_14 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_15 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelRun.lean ====
/-
  The idealized kernel's run with its result array NAMED: every weakly fair execution terminates without a
  fault, the ten argument arrays end as launched, and the result buffer ends at what the last launch's
  write-backs leave, the last of the contents the run threads through its host stretches and launches.
-/
import proofs.«119482_j25864293057209_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Run

end
-- ==== Proof.Walk.lean ====
/-
  What the run's contents hold at the buffers nothing in between writes.

  The run threads the buffer contents through four stretches of host operations and four launches.  An
  argument array is written by neither, so at every boundary it still holds its launch contents; a launch's
  output is untouched by the host stretch after it; the reciprocal-degree column, computed once before the
  first SAGE launch, is an input window of all three and is handed on unchanged.
-/
import proofs.«119482_j25864293057209_2_alg».proof.Proof.Gen.KernelIdeal.Frame
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- No operation of the host stretch writes the buffer: it holds what it held before the stretch. -/
macro "host_keeps" : tactic => `(tactic| (
  refine StableHlo.after_of_forall_not_mem (b := _) _ _ (List.forall_iff_forall_mem.mp (by
    simp only [hostOps0, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))))

/-! ## The arguments the host stretches read after the first launch -/

theorem W1_arg1 (c : Dev nD) : W1 m ρ c (Proc.devRef .tc main_arg1) = m ((c : Thread nD τ).loc main_arg1) := by
  refine Eq.trans (by host_keeps) rfl
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) := by
  refine Eq.trans (by host_keeps) (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) := by
  refine Eq.trans (by host_keeps) (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)

theorem W1_arg2 (c : Dev nD) : W1 m ρ c (Proc.devRef .tc main_arg2) = m ((c : Thread nD τ).loc main_arg2) := by
  refine Eq.trans (by host_keeps) rfl
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) := by
  refine Eq.trans (by host_keeps) (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) := by
  refine Eq.trans (by host_keeps) (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)

theorem W1_arg7 (c : Dev nD) : W1 m ρ c (Proc.devRef .tc main_arg7) = m ((c : Thread nD τ).loc main_arg7) := by
  refine Eq.trans (by host_keeps) rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) := by
  refine Eq.trans (by host_keeps) (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W5_arg7 (c : Dev nD) : W5 m ρ c (Proc.devRef .tc main_arg7) = m ((c : Thread nD τ).loc main_arg7) := by
  refine Eq.trans (by host_keeps) (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)

theorem W1_arg8 (c : Dev nD) : W1 m ρ c (Proc.devRef .tc main_arg8) = m ((c : Thread nD τ).loc main_arg8) := by
  refine Eq.trans (by host_keeps) rfl
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) := by
  refine Eq.trans (by host_keeps) (W2_arg8 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg8 (c : Dev nD) : W5 m ρ c (Proc.devRef .tc main_arg8) = m ((c : Thread nD τ).loc main_arg8) := by
  refine Eq.trans (by host_keeps) (W4_arg8 m ρ c)
theorem W6_arg8 (c : Dev nD) : W6 m ρ c (Proc.devRef .tc main_arg8) = m ((c : Thread nD τ).loc main_arg8) :=
  (W6_of_ne m ρ c main_arg8 (by decide)).trans (W5_arg8 m ρ c)

theorem W1_arg9 (c : Dev nD) : W1 m ρ c (Proc.devRef .tc main_arg9) = m ((c : Thread nD τ).loc main_arg9) := by
  refine Eq.trans (by host_keeps) rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) := by
  refine Eq.trans (by host_keeps) (W2_arg9 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W5_arg9 (c : Dev nD) : W5 m ρ c (Proc.devRef .tc main_arg9) = m ((c : Thread nD τ).loc main_arg9) := by
  refine Eq.trans (by host_keeps) (W4_arg9 m ρ c)
theorem W6_arg9 (c : Dev nD) : W6 m ρ c (Proc.devRef .tc main_arg9) = m ((c : Thread nD τ).loc main_arg9) :=
  (W6_of_ne m ρ c main_arg9 (by decide)).trans (W5_arg9 m ρ c)

/-! ## The arguments the first launch reads -/

theorem W1_arg0 (c : Dev nD) : W1 m ρ c (Proc.devRef .tc main_arg0) = m ((c : Thread nD τ).loc main_arg0) := by
  refine Eq.trans (by host_keeps) rfl
theorem W1_arg3 (c : Dev nD) : W1 m ρ c (Proc.devRef .tc main_arg3) = m ((c : Thread nD τ).loc main_arg3) := by
  refine Eq.trans (by host_keeps) rfl
theorem W1_arg5 (c : Dev nD) : W1 m ρ c (Proc.devRef .tc main_arg5) = m ((c : Thread nD τ).loc main_arg5) := by
  refine Eq.trans (by host_keeps) rfl

/-! ## Each launch's output across the host stretch after it -/

theorem W3_v2 (c : Dev nD) : W3 m ρ c (Proc.devRef .tc main_v2) = W2 m ρ c (Proc.devRef .tc main_v2) := by host_keeps
theorem W5_v30 (c : Dev nD) : W5 m ρ c (Proc.devRef .tc main_v30) = W4 m ρ c (Proc.devRef .tc main_v30) := by host_keeps
theorem W7_v49 (c : Dev nD) : W7 m ρ c (Proc.devRef .tc main_v49) = W6 m ρ c (Proc.devRef .tc main_v49) := by host_keeps

/-! ## The reciprocal-degree column from the first SAGE launch's entry to the last's -/

theorem W4_v11 (c : Dev nD) : W4 m ρ c (Proc.devRef .tc main_v11) = W3 m ρ c (Proc.devRef .tc main_v11) :=
  (W4_arr m ρ c 2).trans (((dat1 (V3 m ρ) c).arrAt_in 2 rfl _).trans (A_eq1 (V3 m ρ) c 2))
theorem W5_v11 (c : Dev nD) : W5 m ρ c (Proc.devRef .tc main_v11) = W3 m ρ c (Proc.devRef .tc main_v11) := by
  refine Eq.trans (by host_keeps) (W4_v11 m ρ c)
theorem W6_v11 (c : Dev nD) : W6 m ρ c (Proc.devRef .tc main_v11) = W3 m ρ c (Proc.devRef .tc main_v11) :=
  ((W6_arr m ρ c 2).trans (((dat2 (V5 m ρ) c).arrAt_in 2 rfl _).trans (A_eq2 (V5 m ρ) c 2))).trans (W5_v11 m ρ c)
theorem W7_v11 (c : Dev nD) : W7 m ρ c (Proc.devRef .tc main_v11) = W3 m ρ c (Proc.devRef .tc main_v11) := by
  refine Eq.trans (by host_keeps) (W6_v11 m ρ c)

end Cert.KernelIdeal.Walk

end
-- ==== Proof.Spec.lean ====
/-
  The mathematics of the two programs, stated once over plain arrays of extended reals.

  A node feature array is [50000, 128]; every dense step reads ONE row of it: a linear map
  row · W (a sum over the 128 input features), a bias, an activation.  The input block is
  z = tanh(x · W₁ + b₁) · W₂ + b₂; a SAGE layer is act(h · Wₛ + b + n · Wₙ) where the neighbour
  term n is the per-destination sum S of gathered rows, normalised by the in-degree d (at least 1).
  The kernel multiplies S by the stored reciprocal 1/d, the reference divides S by d: on the extended
  reals these agree whenever d ≠ 0 (`mul_div_one`), with no finiteness needed, and d = max(·, 1) ≠ 0.
  SiLU is x · logistic x, and logistic is 1 / (1 + e⁻ˣ) by definition.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-- Node features, weight matrices, a bias as one row, a per-node column, and the flat forms. -/
abbrev Nodes : Shape := ⟨2, ![50000, 128]⟩
abbrev Mat : Shape := ⟨2, ![128, 128]⟩
abbrev Row : Shape := ⟨2, ![1, 128]⟩
abbrev Col : Shape := ⟨2, ![50000, 1]⟩
abbrev Vec128 : Shape := ⟨1, ![128]⟩
abbrev Vec50000 : Shape := ⟨1, ![50000]⟩

/-- Row `r` of `h` times column `q` of `W`. -/
def lin (h : Nodes.Idx → EReal) (W : Mat.Idx → EReal) (r : Fin 50000) (q : Fin 128) : EReal :=
  ∑ k : Fin 128, h (ix2 r k) * W (ix2 k q)

/-- The input block at node `r`, feature `q`, biases as [1, 128] rows. -/
def fcAt (x : Nodes.Idx → EReal) (w1 : Mat.Idx → EReal) (b1 : Row.Idx → EReal) (w2 : Mat.Idx → EReal) (b2 : Row.Idx → EReal)
    (r : Fin 50000) (q : Fin 128) : EReal :=
  (∑ k : Fin 128, Ideal.tanh ((∑ j : Fin 128, x (ix2 r j) * w1 (ix2 j k)) + b1 (ix2 (0 : Fin 1) k)) * w2 (ix2 k q)) + b2 (ix2 (0 : Fin 1) q)

/-- A SAGE layer before its activation, as the kernel computes it: the neighbour sum times the stored reciprocal degree. -/
def sageMulAt (h S : Nodes.Idx → EReal) (invd : Col.Idx → EReal) (ws : Mat.Idx → EReal) (b : Row.Idx → EReal) (wn : Mat.Idx → EReal)
    (r : Fin 50000) (q : Fin 128) : EReal :=
  ((∑ k : Fin 128, h (ix2 r k) * ws (ix2 k q)) + b (ix2 (0 : Fin 1) q))
    + ∑ k : Fin 128, (S (ix2 r k) * invd (ix2 r (0 : Fin 1))) * wn (ix2 k q)

/-- The same as the reference computes it: the neighbour sum divided by the degree. -/
def sageDivAt (h S : Nodes.Idx → EReal) (d : Vec50000.Idx → EReal) (ws : Mat.Idx → EReal) (b : Vec128.Idx → EReal) (wn : Mat.Idx → EReal)
    (r : Fin 50000) (q : Fin 128) : EReal :=
  ((∑ k : Fin 128, h (ix2 r k) * ws (ix2 k q)) + b (ix1 q))
    + ∑ k : Fin 128, Ideal.div (S (ix2 r k)) (d (ix1 r)) * wn (ix2 k q)

/-- SiLU. -/
def silu (x : EReal) : EReal := x * Ideal.logistic x

/-- Multiplying by the reciprocal of a nonzero `d` is dividing by `d`, on all the extended reals. -/
theorem mul_div_one (s d : EReal) (hd : d ≠ 0) : s * Ideal.div 1 d = Ideal.div s d := by
  unfold Ideal.div
  rw [if_neg hd, if_neg hd, one_mul]

/-- A degree clamped below by one is not zero. -/
theorem max_one_ne_zero (x : EReal) : max x 1 ≠ 0 := by
  intro h
  have h1 : (1 : EReal) ≤ max x 1 := le_max_right _ _
  rw [h] at h1
  exact absurd h1 (by norm_num)

/-- The two forms of a layer agree when the column holds the reciprocal of a nonzero degree and the bias row is the bias. -/
theorem sageMulAt_eq_sageDivAt (h S : Nodes.Idx → EReal) (invd : Col.Idx → EReal) (d : Vec50000.Idx → EReal)
    (ws : Mat.Idx → EReal) (brow : Row.Idx → EReal) (b : Vec128.Idx → EReal) (wn : Mat.Idx → EReal) (r : Fin 50000) (q : Fin 128)
    (hinv : invd (ix2 r (0 : Fin 1)) = Ideal.div 1 (d (ix1 r))) (hd : d (ix1 r) ≠ 0) (hb : brow (ix2 (0 : Fin 1) q) = b (ix1 q)) :
    sageMulAt h S invd ws brow wn r q = sageDivAt h S d ws b wn r q := by
  unfold sageMulAt sageDivAt
  rw [hb, hinv]
  refine congrArg _ (Finset.sum_congr rfl fun k _ => ?_)
  rw [mul_div_one _ _ hd]

/-- The float word of 1.0 denotes 1. -/
theorem ofBits_one_f32 : Ideal.ofBits .f32 0x3F800000#32 = 1 := by
  simp [Ideal.ofBits, Ideal.ieee, -EReal.coe_mul]; norm_num

/-! ## Two layout readings the dense steps need -/

variable {α : Type}

/-- A `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Spec

end
-- ==== Proof.Payload.lean ====
/-
  What one grid point's body computes, read at one element of its [2000, 128] output block.

  Every body is: two matrix products into a zero accumulator (each element a sum over the 128 shared
  features of a row of the left operand times a column of the right), a bias row broadcast down the
  rows, and an activation.  The SAGE bodies first scale each row of the neighbour sums by that row's
  entry of the reciprocal-degree column.  Changes of float format are the identity on extended reals.
-/
import proofs.«119482_j25864293057209_2_alg».proof.Proof.Gen.KernelIdeal.Skeleton
import proofs.«119482_j25864293057209_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.Spec

abbrev blockDot := dot_S2000x128_S128x128_S2000x128_1_0_0_1_n_n

theorem lhs0 (i : S2000x128.Idx) (k : blockDot.contr.Idx) : (blockDot.lhsIdx i k 0).val = (i 0).val := by
  unfold DotDims.lhsIdx
  rw [dif_neg (show ¬(0 : Fin S2000x128.rank) ∈ blockDot.lhsBatch by decide), dif_pos (show (0 : Fin S2000x128.rank) ∈ blockDot.lhsNonContracting by decide)]
  rfl
theorem lhs1 (i : S2000x128.Idx) (k : blockDot.contr.Idx) : (blockDot.lhsIdx i k 1).val = (k ⟨0, by decide⟩).val :=
  blockDot.lhsIdx_val_of_single rfl i k
theorem rhs0 (i : S2000x128.Idx) (k : blockDot.contr.Idx) : (blockDot.rhsIdx i k 0).val = (k ⟨0, by decide⟩).val :=
  blockDot.rhsIdx_val_of_single rfl i k
theorem rhs1 (i : S2000x128.Idx) (k : blockDot.contr.Idx) : (blockDot.rhsIdx i k 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block's matrix product into a zero accumulator. -/
def mm (l : S2000x128.Idx → EReal) (r : S128x128.Idx → EReal) : S2000x128.Idx → EReal :=
  matmul (F := Ideal) (φ₁ := .bf16) (φ₂ := .bf16) blockDot none l r (constant (F := Ideal) S2000x128 .f32 0x00000000#32)

/-- Its element `(p, q)` is row `p` of the left operand times column `q` of the right. -/
theorem mm_apply (l : S2000x128.Idx → EReal) (r : S128x128.Idx → EReal) (p : Fin 2000) (q : Fin 128) :
    mm l r (ix2 p q) = ∑ k : Fin 128, l (ix2 p k) * r (ix2 k q) := by
  unfold mm
  simp only [matmul]
  rw [Ideal.matmul_constant_zero_apply, ← Equiv.sum_comp (ValueIdx.contrEquiv1 blockDot 128 rfl rfl).symm]
  refine Finset.sum_congr rfl fun k _ => ?_
  have hk := ValueIdx.contrEquiv1_symm_val blockDot 128 rfl rfl k
  have el : blockDot.lhsIdx (ix2 p q) ((ValueIdx.contrEquiv1 blockDot 128 rfl rfl).symm k) = ix2 p k := funext fun a => Fin.ext (by
    match a with
    | ⟨0, _⟩ => exact lhs0 _ _
    | ⟨1, _⟩ => exact (lhs1 _ _).trans hk)
  have er : blockDot.rhsIdx (ix2 p q) ((ValueIdx.contrEquiv1 blockDot 128 rfl rfl).symm k) = ix2 k q := funext fun a => Fin.ext (by
    match a with
    | ⟨0, _⟩ => exact (rhs0 _ _).trans hk
    | ⟨1, _⟩ => exact rhs1 _ _)
  rw [el, er]

/-- A bias row broadcast down the block's rows. -/
def bc (v : S1x128.Idx → EReal) : S2000x128.Idx → EReal :=
  broadcastTo S2000x128 v broadcasts_S1x128_S2000x128
theorem bc_apply (v : S1x128.Idx → EReal) (p : Fin 2000) (q : Fin 128) : bc v (ix2 p q) = v (ix2 (0 : Fin 1) q) :=
  broadcastTo_1b_ab_apply v broadcasts_S1x128_S2000x128 p q

/-- A per-row column broadcast along the block's rows. -/
def bcol (v : S2000x1.Idx → EReal) : S2000x128.Idx → EReal :=
  broadcastTo S2000x128 v broadcasts_S2000x1_S2000x128
theorem bcol_apply (v : S2000x1.Idx → EReal) (p : Fin 2000) (q : Fin 128) : bcol v (ix2 p q) = v (ix2 p (0 : Fin 1)) :=
  broadcastTo_a1_ab_apply v broadcasts_S2000x1_S2000x128 p q

/-- The input block's body at element `(p, q)`. -/
theorem fc_at (v0 : Vec Ideal S2000x128 .f32) (v2 : Vec Ideal S128x128 .f32) (v5 : Vec Ideal S1x128 .f32) (v11 : Vec Ideal S128x128 .f32)
    (v14 : Vec Ideal S1x128 .f32) (p : Fin 2000) (q : Fin 128) :
    k0_pay1 (F := Ideal) v0 v2 v5 v11 v14 (ix2 p q)
      = (∑ k : Fin 128, Ideal.tanh ((∑ j : Fin 128, v0 (ix2 p j) * v2 (ix2 j k)) + v5 (ix2 (0 : Fin 1) k)) * v11 (ix2 k q)) + v14 (ix2 (0 : Fin 1) q) := by
  unfold k0_pay1
  simp only [shapeCast_self]
  show mm (fun i => Ideal.tanh (mm v0 v2 i + bc v5 i)) v11 (ix2 p q) + bc v14 (ix2 p q) = _
  rw [mm_apply, bc_apply]
  refine congrArg (· + _) (Finset.sum_congr rfl fun k _ => ?_)
  show Ideal.tanh (mm v0 v2 (ix2 p k) + bc v5 (ix2 p k)) * _ = _
  rw [mm_apply, bc_apply]

/-- A SAGE body before its activation at element `(p, q)`. -/
def sagePre (v0 : S2000x128.Idx → EReal) (v2 : S2000x128.Idx → EReal) (v4 : S2000x1.Idx → EReal) (v9 v12 : S128x128.Idx → EReal)
    (v16 : S1x128.Idx → EReal) : S2000x128.Idx → EReal :=
  fun i => (mm v0 v9 i + bc v16 i) + mm (fun i' => v2 i' * bcol v4 i') v12 i

theorem sagePre_apply (v0 v2 : S2000x128.Idx → EReal) (v4 : S2000x1.Idx → EReal) (v9 v12 : S128x128.Idx → EReal)
    (v16 : S1x128.Idx → EReal) (p : Fin 2000) (q : Fin 128) :
    sagePre v0 v2 v4 v9 v12 v16 (ix2 p q)
      = ((∑ k : Fin 128, v0 (ix2 p k) * v9 (ix2 k q)) + v16 (ix2 (0 : Fin 1) q))
        + ∑ k : Fin 128, (v2 (ix2 p k) * v4 (ix2 p (0 : Fin 1))) * v12 (ix2 k q) := by
  unfold sagePre
  rw [mm_apply, bc_apply, mm_apply]
  refine congrArg (_ + ·) (Finset.sum_congr rfl fun k _ => ?_)
  rw [bcol_apply]

/-- The two hidden SAGE bodies: SiLU of that. -/
theorem sage1_at (v0 : Vec Ideal S2000x128 .bf16) (v2 : Vec Ideal S2000x128 .f32) (v4 : Vec Ideal S2000x1 .f32) (v9 v12 : Vec Ideal S128x128 .f32)
    (v16 : Vec Ideal S1x128 .f32) (i : S2000x128.Idx) :
    k1_pay1 (F := Ideal) v0 v2 v4 v9 v12 v16 i = silu (sagePre v0 v2 v4 v9 v12 v16 i) := by
  unfold k1_pay1
  simp only [shapeCast_self]
  rfl
theorem sage2_at (v0 : Vec Ideal S2000x128 .bf16) (v2 : Vec Ideal S2000x128 .f32) (v4 : Vec Ideal S2000x1 .f32) (v9 v12 : Vec Ideal S128x128 .f32)
    (v16 : Vec Ideal S1x128 .f32) (i : S2000x128.Idx) :
    k2_pay1 (F := Ideal) v0 v2 v4 v9 v12 v16 i = silu (sagePre v0 v2 v4 v9 v12 v16 i) := by
  unfold k2_pay1
  simp only [shapeCast_self]
  rfl
/-- The last SAGE body: tanh of that. -/
theorem sage3_at (v0 : Vec Ideal S2000x128 .bf16) (v2 : Vec Ideal S2000x128 .f32) (v4 : Vec Ideal S2000x1 .f32) (v9 v12 : Vec Ideal S128x128 .f32)
    (v16 : Vec Ideal S1x128 .f32) (i : S2000x128.Idx) :
    k3_pay1 (F := Ideal) v0 v2 v4 v9 v12 v16 i = Ideal.tanh (sagePre v0 v2 v4 v9 v12 v16 i) := by
  unfold k3_pay1
  simp only [shapeCast_self]
  rfl

end Cert.KernelIdeal.Pay

end
-- ==== Proof.Region0.lean ====
/-
  The first kernel launch as ONE function of the arrays it finds.

  The launch walks 25 grid points; point `t` reads rows 2000·t … 2000·t + 1999 of the node features and
  the whole of each weight matrix and bias row, and writes the same rows of its output.  So the blocks
  tile the output, each block is the restriction of one whole-array function (row `r` of the output
  depends on row `r` of the input only), and the array after the launch is that function.
-/
import proofs.«119482_j25864293057209_2_alg».proof.Proof.Gen.KernelIdeal.Frame
import proofs.«119482_j25864293057209_2_alg».proof.Proof.Payload
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `n`, as a row of the whole array. -/
def row (n : Nat) (hn : n < 25) (p : Fin 2000) : Fin 50000 := ⟨n * 2000 + p.val, by have := p.isLt; omega⟩

theorem lt25 (t : Fin cfg0.N) : t.val < 25 := by
  have h : t.val < grid0.N := t.isLt
  rwa [N_0] at h

/-- The printed index maps over the grid: the row-blocked windows sit at block `t`, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! Where an element of each window's block sits in its array. -/

theorem emb_0 (t : Fin cfg0.N) (p : Fin 2000) (j : Fin 128) :
    ((cfg0.win 0).blk t).view.emb (ix2 p j) = (ix2 (row t.val (lt25 t) p) j : S50000x128.Idx) := by
  obtain ⟨e0, e1, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * j.val = j.val; omega
theorem emb_1 (t : Fin cfg0.N) (p : Fin 128) (j : Fin 128) :
    ((cfg0.win 1).blk t).view.emb (ix2 p j) = (ix2 p j : S128x128.Idx) := by
  obtain ⟨-, -, e0, e1, -⟩ := idx_facts t
  funext a; apply Fin.ext
  match a with
  | ⟨0, _⟩ => show win0_1.index t (0 : Fin 2) * 128 + 1 * p.val = p.val; omega
  | ⟨1, _⟩ => show win0_1.index t (1 : Fin 2) * 128 + 1 * j.val = j.val; omega
theorem emb_2 (t : Fin cfg0.N) (p : Fin 1) (j : Fin 128) :
    ((cfg0.win 2).blk t).view.emb (ix2 p j) = (ix2 p j : S1x128.Idx) := by
  obtain ⟨-, -, -, -, e0, e1, -⟩ := idx_facts t
  funext a; apply Fin.ext
  match a with
  | ⟨0, _⟩ => show win0_2.index t (0 : Fin 2) * 1 + 1 * p.val = p.val; omega
  | ⟨1, _⟩ => show win0_2.index t (1 : Fin 2) * 128 + 1 * j.val = j.val; omega
theorem emb_3 (t : Fin cfg0.N) (p : Fin 128) (j : Fin 128) :
    ((cfg0.win 3).blk t).view.emb (ix2 p j) = (ix2 p j : S128x128.Idx) := by
  obtain ⟨-, -, -, -, -, -, e0, e1, -⟩ := idx_facts t
  funext a; apply Fin.ext
  match a with
  | ⟨0, _⟩ => show win0_3.index t (0 : Fin 2) * 128 + 1 * p.val = p.val; omega
  | ⟨1, _⟩ => show win0_3.index t (1 : Fin 2) * 128 + 1 * j.val = j.val; omega
theorem emb_4 (t : Fin cfg0.N) (p : Fin 1) (j : Fin 128) :
    ((cfg0.win 4).blk t).view.emb (ix2 p j) = (ix2 p j : S1x128.Idx) := by
  obtain ⟨-, -, -, -, -, -, -, -, e0, e1, -⟩ := idx_facts t
  funext a; apply Fin.ext
  match a with
  | ⟨0, _⟩ => show win0_4.index t (0 : Fin 2) * 1 + 1 * p.val = p.val; omega
  | ⟨1, _⟩ => show win0_4.index t (1 : Fin 2) * 128 + 1 * j.val = j.val; omega
theorem emb_5 (t : Fin cfg0.N) (p : Fin 2000) (j : Fin 128) :
    ((cfg0.win 5).blk t).view.emb (ix2 p j) = (ix2 (row t.val (lt25 t) p) j : S50000x128.Idx) := by
  obtain ⟨-, -, -, -, -, -, -, -, -, -, e0, e1⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 128 + 1 * j.val = j.val; omega

/-- The arrays the launch finds, as plain arrays of extended reals. -/
def inX (c : Dev nD) : S50000x128.Idx → EReal := V c main_arg0
def inW1 (c : Dev nD) : S128x128.Idx → EReal := V c main_arg3
def inB1 (c : Dev nD) : S1x128.Idx → EReal := V c main_v0
def inW2 (c : Dev nD) : S128x128.Idx → EReal := V c main_arg5
def inB2 (c : Dev nD) : S1x128.Idx → EReal := V c main_v1

/-- What the output array holds after the launch: the input block of the arrays found at entry. -/
def G (c : Dev nD) : S50000x128.Idx → EReal := fun i =>
  fcAt (inX V c) (inW1 V c) (inB1 V c) (inW2 V c) (inB2 V c) (i 0) (i 1)

/-! Each window's block at point `t` read at an element: the array's element where the block sits. -/

theorem blk_0 (c : Dev nD) (t : Fin cfg0.N) (p : Fin 2000) (j : Fin 128) :
    iblk0 V c 0 t (ix2 p j) = inX V c (ix2 (row t.val (lt25 t) p) j) := by
  show V c main_arg0 (((cfg0.win 0).blk t).view.emb (ix2 p j)) = _
  rw [emb_0]; rfl
theorem blk_1 (c : Dev nD) (t : Fin cfg0.N) (p : Fin 128) (j : Fin 128) :
    iblk0 V c 1 t (ix2 p j) = inW1 V c (ix2 p j) := by
  show V c main_arg3 (((cfg0.win 1).blk t).view.emb (ix2 p j)) = _
  rw [emb_1]; rfl
theorem blk_2 (c : Dev nD) (t : Fin cfg0.N) (p : Fin 1) (j : Fin 128) :
    iblk0 V c 2 t (ix2 p j) = inB1 V c (ix2 p j) := by
  show V c main_v0 (((cfg0.win 2).blk t).view.emb (ix2 p j)) = _
  rw [emb_2]; rfl
theorem blk_3 (c : Dev nD) (t : Fin cfg0.N) (p : Fin 128) (j : Fin 128) :
    iblk0 V c 3 t (ix2 p j) = inW2 V c (ix2 p j) := by
  show V c main_arg5 (((cfg0.win 3).blk t).view.emb (ix2 p j)) = _
  rw [emb_3]; rfl
theorem blk_4 (c : Dev nD) (t : Fin cfg0.N) (p : Fin 1) (j : Fin 128) :
    iblk0 V c 4 t (ix2 p j) = inB2 V c (ix2 p j) := by
  show V c main_v1 (((cfg0.win 4).blk t).view.emb (ix2 p j)) = _
  rw [emb_4]; rfl

/-- The body's result at an element of block `t`, over the arrays. -/
theorem body_at (c : Dev nD) (t : Fin cfg0.N) (p : Fin 2000) (q : Fin 128) :
    k0_pay1 (F := Ideal) (iblk0 V c 0 t) (iblk0 V c 1 t) (iblk0 V c 2 t) (iblk0 V c 3 t) (iblk0 V c 4 t) (ix2 p q)
      = fcAt (inX V c) (inW1 V c) (inB1 V c) (inW2 V c) (inB2 V c) (row t.val (lt25 t) p) q := by
  refine (Pay.fc_at (iblk0 V c 0 t) (iblk0 V c 1 t) (iblk0 V c 2 t) (iblk0 V c 3 t) (iblk0 V c 4 t) p q).trans ?_
  simp only [blk_0, blk_1, blk_2, blk_3, blk_4]
  rfl

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (body_at V c t p q).trans ?_
  show _ = G V c (((cfg0.win 5).blk t).view.emb (ix2 p q))
  rw [emb_5 t p q]
  rfl

theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v2).slice (win0_5.rect t)).set ↔ _
  rw [View.set_slice_whole, Rect.mem_set_unit]
  exact Iff.rfl

/-- Every row is in the block of the point numbered by its quotient by 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 2000 < grid0.N := by rw [N_0]; omega
  obtain ⟨-, -, -, -, -, -, -, -, -, -, e0, e1⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val ∧ (i 0).val < win0_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hN⟩ (1 : Fin 2) * 128 ≤ (i 1).val ∧ (i 1).val < win0_5.index ⟨(i 0).val / 2000, hN⟩ (1 : Fin 2) * 128 + 128
    rw [e1]; omega

/-- The output array after the launch. -/
theorem final (c : Dev nD) : (dat0 V c).arrAt 5 cfg0.N = G V c :=
  (dat0 V c).arrAt_eq_of_cover 5 (G V c) (fun t _ => flushed_eq V c t) cover

end Cert.KernelIdeal.Reg0

end
-- ==== Proof.Region1.lean ====
/-
  SAGE launch 1 as ONE function of the arrays it finds.

  Point `t` of the 25 reads rows 2000·t … 2000·t + 1999 of the node features, of the neighbour sums and of the
  reciprocal-degree column, the whole of both weight matrices and of the bias row, and writes the same
  rows of its output: row `r` of the output depends on row `r` of the inputs only, so the blocks are
  restrictions of one whole-array function and they tile the output.
-/
import proofs.«119482_j25864293057209_2_alg».proof.Proof.Gen.KernelIdeal.Frame
import proofs.«119482_j25864293057209_2_alg».proof.Proof.Payload
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `n`, as a row of the whole array. -/
def row (n : Nat) (hn : n < 25) (p : Fin 2000) : Fin 50000 := ⟨n * 2000 + p.val, by have := p.isLt; omega⟩

theorem lt25 (t : Fin cfg1.N) : t.val < 25 := by
  have h : t.val < grid1.N := t.isLt
  rwa [N_1] at h

/-- The printed index maps over the grid: the row-blocked windows sit at block `t`, the others at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! Where an element of each window's block sits in its array. -/

theorem emb_0 (t : Fin cfg1.N) (p : Fin 2000) (j : Fin 128) :
    ((cfg1.win 0).blk t).view.emb (ix2 p j) = (ix2 (row t.val (lt25 t) p) j : S50000x128.Idx) := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 128 + 1 * j.val = j.val; omega
theorem emb_1 (t : Fin cfg1.N) (p : Fin 2000) (j : Fin 128) :
    ((cfg1.win 1).blk t).view.emb (ix2 p j) = (ix2 (row t.val (lt25 t) p) j : S50000x128.Idx) := by
  obtain ⟨-, -, e0, e1, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 128 + 1 * j.val = j.val; omega
theorem emb_2 (t : Fin cfg1.N) (p : Fin 2000) (j : Fin 1) :
    ((cfg1.win 2).blk t).view.emb (ix2 p j) = (ix2 (row t.val (lt25 t) p) j : S50000x1.Idx) := by
  obtain ⟨-, -, -, -, e0, e1, -⟩ := idx_facts t
  funext a; apply Fin.ext
  match a with
  | ⟨0, _⟩ => show win1_2.index t (0 : Fin 2) * 2000 + 1 * p.val = t.val * 2000 + p.val; omega
  | ⟨1, _⟩ => show win1_2.index t (1 : Fin 2) * 1 + 1 * j.val = j.val; omega
theorem emb_3 (t : Fin cfg1.N) (p : Fin 128) (j : Fin 128) :
    ((cfg1.win 3).blk t).view.emb (ix2 p j) = (ix2 p j : S128x128.Idx) := by
  obtain ⟨-, -, -, -, -, -, e0, e1, -⟩ := idx_facts t
  funext a; apply Fin.ext
  match a with
  | ⟨0, _⟩ => show win1_3.index t (0 : Fin 2) * 128 + 1 * p.val = p.val; omega
  | ⟨1, _⟩ => show win1_3.index t (1 : Fin 2) * 128 + 1 * j.val = j.val; omega
theorem emb_4 (t : Fin cfg1.N) (p : Fin 1) (j : Fin 128) :
    ((cfg1.win 4).blk t).view.emb (ix2 p j) = (ix2 p j : S1x128.Idx) := by
  obtain ⟨-, -, -, -, -, -, -, -, e0, e1, -⟩ := idx_facts t
  funext a; apply Fin.ext
  match a with
  | ⟨0, _⟩ => show win1_4.index t (0 : Fin 2) * 1 + 1 * p.val = p.val; omega
  | ⟨1, _⟩ => show win1_4.index t (1 : Fin 2) * 128 + 1 * j.val = j.val; omega
theorem emb_5 (t : Fin cfg1.N) (p : Fin 128) (j : Fin 128) :
    ((cfg1.win 5).blk t).view.emb (ix2 p j) = (ix2 p j : S128x128.Idx) := by
  obtain ⟨-, -, -, -, -, -, -, -, -, -, e0, e1, -⟩ := idx_facts t
  funext a; apply Fin.ext
  match a with
  | ⟨0, _⟩ => show win1_5.index t (0 : Fin 2) * 128 + 1 * p.val = p.val; omega
  | ⟨1, _⟩ => show win1_5.index t (1 : Fin 2) * 128 + 1 * j.val = j.val; omega
theorem emb_6 (t : Fin cfg1.N) (p : Fin 2000) (j : Fin 128) :
    ((cfg1.win 6).blk t).view.emb (ix2 p j) = (ix2 (row t.val (lt25 t) p) j : S50000x128.Idx) := by
  obtain ⟨-, -, -, -, -, -, -, -, -, -, -, -, e0, e1⟩ := idx_facts t
  funext a; apply Fin.ext
  match a with
  | ⟨0, _⟩ => show win1_6.index t (0 : Fin 2) * 2000 + 1 * p.val = t.val * 2000 + p.val; omega
  | ⟨1, _⟩ => show win1_6.index t (1 : Fin 2) * 128 + 1 * j.val = j.val; omega

/-- The arrays the launch finds, as plain arrays of extended reals. -/
def inH (c : Dev nD) : S50000x128.Idx → EReal := V c main_v2
def inS (c : Dev nD) : S50000x128.Idx → EReal := V c main_v22
def inD (c : Dev nD) : S50000x1.Idx → EReal := V c main_v11
def inWs (c : Dev nD) : S128x128.Idx → EReal := V c main_v24
def inB (c : Dev nD) : S1x128.Idx → EReal := V c main_v29
def inWn (c : Dev nD) : S128x128.Idx → EReal := V c main_v28

/-- What the output array holds after the launch: the layer of the arrays found at entry. -/
def G (c : Dev nD) : S50000x128.Idx → EReal := fun i =>
  silu (sageMulAt (inH V c) (inS V c) (inD V c) (inWs V c) (inB V c) (inWn V c) (i 0) (i 1))

/-! Each window's block at point `t` read at an element: the array's element where the block sits. -/

theorem blk_0 (c : Dev nD) (t : Fin cfg1.N) (p : Fin 2000) (j : Fin 128) :
    iblk1 V c 0 t (ix2 p j) = inH V c (ix2 (row t.val (lt25 t) p) j) := by
  show V c main_v2 (((cfg1.win 0).blk t).view.emb (ix2 p j)) = _
  rw [emb_0]; rfl
theorem blk_1 (c : Dev nD) (t : Fin cfg1.N) (p : Fin 2000) (j : Fin 128) :
    iblk1 V c 1 t (ix2 p j) = inS V c (ix2 (row t.val (lt25 t) p) j) := by
  show V c main_v22 (((cfg1.win 1).blk t).view.emb (ix2 p j)) = _
  rw [emb_1]; rfl
theorem blk_2 (c : Dev nD) (t : Fin cfg1.N) (p : Fin 2000) (j : Fin 1) :
    iblk1 V c 2 t (ix2 p j) = inD V c (ix2 (row t.val (lt25 t) p) j) := by
  show V c main_v11 (((cfg1.win 2).blk t).view.emb (ix2 p j)) = _
  rw [emb_2]; rfl
theorem blk_3 (c : Dev nD) (t : Fin cfg1.N) (p : Fin 128) (j : Fin 128) :
    iblk1 V c 3 t (ix2 p j) = inWs V c (ix2 p j) := by
  show V c main_v24 (((cfg1.win 3).blk t).view.emb (ix2 p j)) = _
  rw [emb_3]; rfl
theorem blk_4 (c : Dev nD) (t : Fin cfg1.N) (p : Fin 1) (j : Fin 128) :
    iblk1 V c 4 t (ix2 p j) = inB V c (ix2 p j) := by
  show V c main_v29 (((cfg1.win 4).blk t).view.emb (ix2 p j)) = _
  rw [emb_4]; rfl
theorem blk_5 (c : Dev nD) (t : Fin cfg1.N) (p : Fin 128) (j : Fin 128) :
    iblk1 V c 5 t (ix2 p j) = inWn V c (ix2 p j) := by
  show V c main_v28 (((cfg1.win 5).blk t).view.emb (ix2 p j)) = _
  rw [emb_5]; rfl

/-- The body's result at an element of block `t`, over the arrays. -/
theorem body_at (c : Dev nD) (t : Fin cfg1.N) (p : Fin 2000) (q : Fin 128) :
    k1_pay1 (F := Ideal) (iblk1 V c 0 t) (iblk1 V c 1 t) (iblk1 V c 2 t) (iblk1 V c 3 t) (iblk1 V c 5 t) (iblk1 V c 4 t) (ix2 p q)
      = silu (sageMulAt (inH V c) (inS V c) (inD V c) (inWs V c) (inB V c) (inWn V c) (row t.val (lt25 t) p) q) := by
  refine (Pay.sage1_at (iblk1 V c 0 t) (iblk1 V c 1 t) (iblk1 V c 2 t) (iblk1 V c 3 t) (iblk1 V c 5 t) (iblk1 V c 4 t) (ix2 p q)).trans ?_
  refine congrArg silu ?_
  refine (Pay.sagePre_apply (iblk1 V c 0 t) (iblk1 V c 1 t) (iblk1 V c 2 t) (iblk1 V c 3 t) (iblk1 V c 5 t) (iblk1 V c 4 t) p q).trans ?_
  simp only [blk_0, blk_1, blk_2, blk_3, blk_4, blk_5]
  rfl

/-- What point `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz, View.ld_unit_zero (S := S2000x1) hz]
  funext j
  obtain ⟨p, q, rfl⟩ : ∃ (p : Fin 2000) (q : Fin 128), j = ix2 p q := ⟨j 0, j 1, eq_ix2 j⟩
  refine (body_at V c t p q).trans ?_
  show _ = G V c (((cfg1.win 6).blk t).view.emb (ix2 p q))
  rw [emb_6 t p q]
  rfl

theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v30).slice (win1_6.rect t)).set ↔ _
  rw [View.set_slice_whole, Rect.mem_set_unit]
  exact Iff.rfl

/-- Every row is in the block of the point numbered by its quotient by 2000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 2000 < grid1.N := by rw [N_1]; omega
  obtain ⟨-, -, -, -, -, -, -, -, -, -, -, -, e0, e1⟩ := idx_facts ⟨(i 0).val / 2000, hN⟩
  refine ⟨⟨(i 0).val / 2000, hN⟩, flush1_6 _, ?_⟩
  rw [mem_blk]
  intro a
  match a with
  | ⟨0, _⟩ =>
    show win1_6.index ⟨(i 0).val / 2000, hN⟩ (0 : Fin 2) * 2000 ≤ (i 0).val ∧ (i 0).val < win1_6.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hN⟩ (1 : Fin 2) * 128 ≤ (i 1).val ∧ (i 1).val < win1_6.index ⟨(i 0).val / 2000, hN⟩ (1 : Fin 2) * 128 + 128
    rw [e1]; omega

/-- The output array after the launch. -/
theorem final (c : Dev nD) : (dat1 V c).arrAt 6 cfg1.N = G V c :=
  (dat1 V c).arrAt_eq_of_cover 6 (G V c) (fun t _ => flushed_eq V c t) cover

end Cert.KernelIdeal.Reg1

end
-- ==== Proof.Region2.lean ====
/-
  SAGE launch 2 as ONE function of the arrays it finds.

  Point `t` of the 25 reads rows 2000·t … 2000·t + 1999 of the node features, of the neighbour sums and of the
  reciprocal-degree column, the whole of both weight matrices and of the bias row, and writes the same
  rows of its output: row `r` of the output depends on row `r` of the inputs only, so the blocks are
  restrictions of one whole-array function and they tile the output.
-/
import proofs.«119482_j25864293057209_2_alg».proof.Proof.Gen.KernelIdeal.Frame
import proofs.«119482_j25864293057209_2_alg».proof.Proof.Payload
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `n`, as a row of the whole array. -/
def row (n : Nat) (hn : n < 25) (p : Fin 2000) : Fin 50000 := ⟨n * 2000 + p.val, by have := p.isLt; omega⟩

theorem lt25 (t : Fin cfg2.N) : t.val < 25 := by
  have h : t.val < grid2.N := t.isLt
  rwa [N_2] at h

/-- The printed index maps over the grid: the row-blocked windows sit at block `t`, the others at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-! Where an element of each window's block sits in its array. -/

theorem emb_0 (t : Fin cfg2.N) (p : Fin 2000) (j : Fin 128) :
    ((cfg2.win 0).blk t).view.emb (ix2 p j) = (ix2 (row t.val (lt25 t) p) j : S50000x128.Idx) := by
  obtain ⟨e0, e1, -⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * j.val = j.val; omega
theorem emb_1 (t : Fin cfg2.N) (p : Fin 2000) (j : Fin 128) :
    ((cfg2.win 1).blk t).view.emb (ix2 p j) = (ix2 (row t.val (lt25 t) p) j : S50000x128.Idx) := by
  obtain ⟨-, -, e0, e1, -⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 128 + 1 * j.val = j.val; omega
theorem emb_2 (t : Fin cfg2.N) (p : Fin 2000) (j : Fin 1) :
    ((cfg2.win 2).blk t).view.emb (ix2 p j) = (ix2 (row t.val (lt25 t) p) j : S50000x1.Idx) := by
  obtain ⟨-, -, -, -, e0, e1, -⟩ := idx_facts t
  funext a; apply Fin.ext
  match a with
  | ⟨0, _⟩ => show win2_2.index t (0 : Fin 2) * 2000 + 1 * p.val = t.val * 2000 + p.val; omega
  | ⟨1, _⟩ => show win2_2.index t (1 : Fin 2) * 1 + 1 * j.val = j.val; omega
theorem emb_3 (t : Fin cfg2.N) (p : Fin 128) (j : Fin 128) :
    ((cfg2.win 3).blk t).view.emb (ix2 p j) = (ix2 p j : S128x128.Idx) := by
  obtain ⟨-, -, -, -, -, -, e0, e1, -⟩ := idx_facts t
  funext a; apply Fin.ext
  match a with
  | ⟨0, _⟩ => show win2_3.index t (0 : Fin 2) * 128 + 1 * p.val = p.val; omega
  | ⟨1, _⟩ => show win2_3.index t (1 : Fin 2) * 128 + 1 * j.val = j.val; omega
theorem emb_4 (t : Fin cfg2.N) (p : Fin 1) (j : Fin 128) :
    ((cfg2.win 4).blk t).view.emb (ix2 p j) = (ix2 p j : S1x128.Idx) := by
  obtain ⟨-, -, -, -, -, -, -, -, e0, e1, -⟩ := idx_facts t
  funext a; apply Fin.ext
  match a with
  | ⟨0, _⟩ => show win2_4.index t (0 : Fin 2) * 1 + 1 * p.val = p.val; omega
  | ⟨1, _⟩ => show win2_4.index t (1 : Fin 2) * 128 + 1 * j.val = j.val; omega
theorem emb_5 (t : Fin cfg2.N) (p : Fin 128) (j : Fin 128) :
    ((cfg2.win 5).blk t).view.emb (ix2 p j) = (ix2 p j : S128x128.Idx) := by
  obtain ⟨-, -, -, -, -, -, -, -, -, -, e0, e1, -⟩ := idx_facts t
  funext a; apply Fin.ext
  match a with
  | ⟨0, _⟩ => show win2_5.index t (0 : Fin 2) * 128 + 1 * p.val = p.val; omega
  | ⟨1, _⟩ => show win2_5.index t (1 : Fin 2) * 128 + 1 * j.val = j.val; omega
theorem emb_6 (t : Fin cfg2.N) (p : Fin 2000) (j : Fin 128) :
    ((cfg2.win 6).blk t).view.emb (ix2 p j) = (ix2 (row t.val (lt25 t) p) j : S50000x128.Idx) := by
  obtain ⟨-, -, -, -, -, -, -, -, -, -, -, -, e0, e1⟩ := idx_facts t
  funext a; apply Fin.ext
  match a with
  | ⟨0, _⟩ => show win2_6.index t (0 : Fin 2) * 2000 + 1 * p.val = t.val * 2000 + p.val; omega
  | ⟨1, _⟩ => show win2_6.index t (1 : Fin 2) * 128 + 1 * j.val = j.val; omega

/-- The arrays the launch finds, as plain arrays of extended reals. -/
def inH (c : Dev nD) : S50000x128.Idx → EReal := V c main_v30
def inS (c : Dev nD) : S50000x128.Idx → EReal := V c main_v41
def inD (c : Dev nD) : S50000x1.Idx → EReal := V c main_v11
def inWs (c : Dev nD) : S128x128.Idx → EReal := V c main_v43
def inB (c : Dev nD) : S1x128.Idx → EReal := V c main_v48
def inWn (c : Dev nD) : S128x128.Idx → EReal := V c main_v47

/-- What the output array holds after the launch: the layer of the arrays found at entry. -/
def G (c : Dev nD) : S50000x128.Idx → EReal := fun i =>
  silu (sageMulAt (inH V c) (inS V c) (inD V c) (inWs V c) (inB V c) (inWn V c) (i 0) (i 1))

/-! Each window's block at point `t` read at an element: the array's element where the block sits. -/

theorem blk_0 (c : Dev nD) (t : Fin cfg2.N) (p : Fin 2000) (j : Fin 128) :
    iblk2 V c 0 t (ix2 p j) = inH V c (ix2 (row t.val (lt25 t) p) j) := by
  show V c main_v30 (((cfg2.win 0).blk t).view.emb (ix2 p j)) = _
  rw [emb_0]; rfl
theorem blk_1 (c : Dev nD) (t : Fin cfg2.N) (p : Fin 2000) (j : Fin 128) :
    iblk2 V c 1 t (ix2 p j) = inS V c (ix2 (row t.val (lt25 t) p) j) := by
  show V c main_v41 (((cfg2.win 1).blk t).view.emb (ix2 p j)) = _
  rw [emb_1]; rfl
theorem blk_2 (c : Dev nD) (t : Fin cfg2.N) (p : Fin 2000) (j : Fin 1) :
    iblk2 V c 2 t (ix2 p j) = inD V c (ix2 (row t.val (lt25 t) p) j) := by
  show V c main_v11 (((cfg2.win 2).blk t).view.emb (ix2 p j)) = _
  rw [emb_2]; rfl
theorem blk_3 (c : Dev nD) (t : Fin cfg2.N) (p : Fin 128) (j : Fin 128) :
    iblk2 V c 3 t (ix2 p j) = inWs V c (ix2 p j) := by
  show V c main_v43 (((cfg2.win 3).blk t).view.emb (ix2 p j)) = _
  rw [emb_3]; rfl
theorem blk_4 (c : Dev nD) (t : Fin cfg2.N) (p : Fin 1) (j : Fin 128) :
    iblk2 V c 4 t (ix2 p j) = inB V c (ix2 p j) := by
  show V c main_v48 (((cfg2.win 4).blk t).view.emb (ix2 p j)) = _
  rw [emb_4]; rfl
theorem blk_5 (c : Dev nD) (t : Fin cfg2.N) (p : Fin 128) (j : Fin 128) :
    iblk2 V c 5 t (ix2 p j) = inWn V c (ix2 p j) := by
  show V c main_v47 (((cfg2.win 5).blk t).view.emb (ix2 p j)) = _
  rw [emb_5]; rfl

/-- The body's result at an element of block `t`, over the arrays. -/
theorem body_at (c : Dev nD) (t : Fin cfg2.N) (p : Fin 2000) (q : Fin 128) :
    k2_pay1 (F := Ideal) (iblk2 V c 0 t) (iblk2 V c 1 t) (iblk2 V c 2 t) (iblk2 V c 3 t) (iblk2 V c 5 t) (iblk2 V c 4 t) (ix2 p q)
      = silu (sageMulAt (inH V c) (inS V c) (inD V c) (inWs V c) (inB V c) (inWn V c) (row t.val (lt25 t) p) q) := by
  refine (Pay.sage2_at (iblk2 V c 0 t) (iblk2 V c 1 t) (iblk2 V c 2 t) (iblk2 V c 3 t) (iblk2 V c 5 t) (iblk2 V c 4 t) (ix2 p q)).trans ?_
  refine congrArg silu ?_
  refine (Pay.sagePre_apply (iblk2 V c 0 t) (iblk2 V c 1 t) (iblk2 V c 2 t) (iblk2 V c 3 t) (iblk2 V c 5 t) (iblk2 V c 4 t) p q).trans ?_
  simp only [blk_0, blk_1, blk_2, blk_3, blk_4, blk_5]
  rfl

/-- What point `t` writes back is block `t` of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz, View.ld_unit_zero (S := S2000x1) hz]
  funext j
  obtain ⟨p, q, rfl⟩ : ∃ (p : Fin 2000) (q : Fin 128), j = ix2 p q := ⟨j 0, j 1, eq_ix2 j⟩
  refine (body_at V c t p q).trans ?_
  show _ = G V c (((cfg2.win 6).blk t).view.emb (ix2 p q))
  rw [emb_6 t p q]
  rfl

theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v49).slice (win2_6.rect t)).set ↔ _
  rw [View.set_slice_whole, Rect.mem_set_unit]
  exact Iff.rfl

/-- Every row is in the block of the point numbered by its quotient by 2000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : (i 0).val / 2000 < grid2.N := by rw [N_2]; omega
  obtain ⟨-, -, -, -, -, -, -, -, -, -, -, -, e0, e1⟩ := idx_facts ⟨(i 0).val / 2000, hN⟩
  refine ⟨⟨(i 0).val / 2000, hN⟩, flush2_6 _, ?_⟩
  rw [mem_blk]
  intro a
  match a with
  | ⟨0, _⟩ =>
    show win2_6.index ⟨(i 0).val / 2000, hN⟩ (0 : Fin 2) * 2000 ≤ (i 0).val ∧ (i 0).val < win2_6.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, hN⟩ (1 : Fin 2) * 128 ≤ (i 1).val ∧ (i 1).val < win2_6.index ⟨(i 0).val / 2000, hN⟩ (1 : Fin 2) * 128 + 128
    rw [e1]; omega

/-- The output array after the launch. -/
theorem final (c : Dev nD) : (dat2 V c).arrAt 6 cfg2.N = G V c :=
  (dat2 V c).arrAt_eq_of_cover 6 (G V c) (fun t _ => flushed_eq V c t) cover

end Cert.KernelIdeal.Reg2

end
-- ==== Proof.Region3.lean ====
/-
  SAGE launch 3 as ONE function of the arrays it finds.

  Point `t` of the 25 reads rows 2000·t … 2000·t + 1999 of the node features, of the neighbour sums and of the
  reciprocal-degree column, the whole of both weight matrices and of the bias row, and writes the same
  rows of its output: row `r` of the output depends on row `r` of the inputs only, so the blocks are
  restrictions of one whole-array function and they tile the output.
-/
import proofs.«119482_j25864293057209_2_alg».proof.Proof.Gen.KernelIdeal.Frame
import proofs.«119482_j25864293057209_2_alg».proof.Proof.Payload
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.ShloMosaic.ValueIdx Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `p` of block `n`, as a row of the whole array. -/
def row (n : Nat) (hn : n < 25) (p : Fin 2000) : Fin 50000 := ⟨n * 2000 + p.val, by have := p.isLt; omega⟩

theorem lt25 (t : Fin cfg3.N) : t.val < 25 := by
  have h : t.val < grid3.N := t.isLt
  rwa [N_3] at h

/-- The printed index maps over the grid: the row-blocked windows sit at block `t`, the others at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! Where an element of each window's block sits in its array. -/

theorem emb_0 (t : Fin cfg3.N) (p : Fin 2000) (j : Fin 128) :
    ((cfg3.win 0).blk t).view.emb (ix2 p j) = (ix2 (row t.val (lt25 t) p) j : S50000x128.Idx) := by
  obtain ⟨e0, e1, -⟩ := idx_facts t
  funext a; apply Fin.ext
  match a with
  | ⟨0, _⟩ => show win3_0.index t (0 : Fin 2) * 2000 + 1 * p.val = t.val * 2000 + p.val; omega
  | ⟨1, _⟩ => show win3_0.index t (1 : Fin 2) * 128 + 1 * j.val = j.val; omega
theorem emb_1 (t : Fin cfg3.N) (p : Fin 2000) (j : Fin 128) :
    ((cfg3.win 1).blk t).view.emb (ix2 p j) = (ix2 (row t.val (lt25 t) p) j : S50000x128.Idx) := by
  obtain ⟨-, -, e0, e1, -⟩ := idx_facts t
  funext a; apply Fin.ext
  match a with
  | ⟨0, _⟩ => show win3_1.index t (0 : Fin 2) * 2000 + 1 * p.val = t.val * 2000 + p.val; omega
  | ⟨1, _⟩ => show win3_1.index t (1 : Fin 2) * 128 + 1 * j.val = j.val; omega
theorem emb_2 (t : Fin cfg3.N) (p : Fin 2000) (j : Fin 1) :
    ((cfg3.win 2).blk t).view.emb (ix2 p j) = (ix2 (row t.val (lt25 t) p) j : S50000x1.Idx) := by
  obtain ⟨-, -, -, -, e0, e1, -⟩ := idx_facts t
  funext a; apply Fin.ext
  match a with
  | ⟨0, _⟩ => show win3_2.index t (0 : Fin 2) * 2000 + 1 * p.val = t.val * 2000 + p.val; omega
  | ⟨1, _⟩ => show win3_2.index t (1 : Fin 2) * 1 + 1 * j.val = j.val; omega
theorem emb_3 (t : Fin cfg3.N) (p : Fin 128) (j : Fin 128) :
    ((cfg3.win 3).blk t).view.emb (ix2 p j) = (ix2 p j : S128x128.Idx) := by
  obtain ⟨-, -, -, -, -, -, e0, e1, -⟩ := idx_facts t
  funext a; apply Fin.ext
  match a with
  | ⟨0, _⟩ => show win3_3.index t (0 : Fin 2) * 128 + 1 * p.val = p.val; omega
  | ⟨1, _⟩ => show win3_3.index t (1 : Fin 2) * 128 + 1 * j.val = j.val; omega
theorem emb_4 (t : Fin cfg3.N) (p : Fin 1) (j : Fin 128) :
    ((cfg3.win 4).blk t).view.emb (ix2 p j) = (ix2 p j : S1x128.Idx) := by
  obtain ⟨-, -, -, -, -, -, -, -, e0, e1, -⟩ := idx_facts t
  funext a; apply Fin.ext
  match a with
  | ⟨0, _⟩ => show win3_4.index t (0 : Fin 2) * 1 + 1 * p.val = p.val; omega
  | ⟨1, _⟩ => show win3_4.index t (1 : Fin 2) * 128 + 1 * j.val = j.val; omega
theorem emb_5 (t : Fin cfg3.N) (p : Fin 128) (j : Fin 128) :
    ((cfg3.win 5).blk t).view.emb (ix2 p j) = (ix2 p j : S128x128.Idx) := by
  obtain ⟨-, -, -, -, -, -, -, -, -, -, e0, e1, -⟩ := idx_facts t
  funext a; apply Fin.ext
  match a with
  | ⟨0, _⟩ => show win3_5.index t (0 : Fin 2) * 128 + 1 * p.val = p.val; omega
  | ⟨1, _⟩ => show win3_5.index t (1 : Fin 2) * 128 + 1 * j.val = j.val; omega
theorem emb_6 (t : Fin cfg3.N) (p : Fin 2000) (j : Fin 128) :
    ((cfg3.win 6).blk t).view.emb (ix2 p j) = (ix2 (row t.val (lt25 t) p) j : S50000x128.Idx) := by
  obtain ⟨-, -, -, -, -, -, -, -, -, -, -, -, e0, e1⟩ := idx_facts t
  funext a; apply Fin.ext
  match a with
  | ⟨0, _⟩ => show win3_6.index t (0 : Fin 2) * 2000 + 1 * p.val = t.val * 2000 + p.val; omega
  | ⟨1, _⟩ => show win3_6.index t (1 : Fin 2) * 128 + 1 * j.val = j.val; omega

/-- The arrays the launch finds, as plain arrays of extended reals. -/
def inH (c : Dev nD) : S50000x128.Idx → EReal := V c main_v49
def inS (c : Dev nD) : S50000x128.Idx → EReal := V c main_v60
def inD (c : Dev nD) : S50000x1.Idx → EReal := V c main_v11
def inWs (c : Dev nD) : S128x128.Idx → EReal := V c main_v62
def inB (c : Dev nD) : S1x128.Idx → EReal := V c main_v67
def inWn (c : Dev nD) : S128x128.Idx → EReal := V c main_v66

/-- What the output array holds after the launch: the layer of the arrays found at entry. -/
def G (c : Dev nD) : S50000x128.Idx → EReal := fun i =>
  Ideal.tanh (sageMulAt (inH V c) (inS V c) (inD V c) (inWs V c) (inB V c) (inWn V c) (i 0) (i 1))

/-! Each window's block at point `t` read at an element: the array's element where the block sits. -/

theorem blk_0 (c : Dev nD) (t : Fin cfg3.N) (p : Fin 2000) (j : Fin 128) :
    iblk3 V c 0 t (ix2 p j) = inH V c (ix2 (row t.val (lt25 t) p) j) := by
  show V c main_v49 (((cfg3.win 0).blk t).view.emb (ix2 p j)) = _
  rw [emb_0]; rfl
theorem blk_1 (c : Dev nD) (t : Fin cfg3.N) (p : Fin 2000) (j : Fin 128) :
    iblk3 V c 1 t (ix2 p j) = inS V c (ix2 (row t.val (lt25 t) p) j) := by
  show V c main_v60 (((cfg3.win 1).blk t).view.emb (ix2 p j)) = _
  rw [emb_1]; rfl
theorem blk_2 (c : Dev nD) (t : Fin cfg3.N) (p : Fin 2000) (j : Fin 1) :
    iblk3 V c 2 t (ix2 p j) = inD V c (ix2 (row t.val (lt25 t) p) j) := by
  show V c main_v11 (((cfg3.win 2).blk t).view.emb (ix2 p j)) = _
  rw [emb_2]; rfl
theorem blk_3 (c : Dev nD) (t : Fin cfg3.N) (p : Fin 128) (j : Fin 128) :
    iblk3 V c 3 t (ix2 p j) = inWs V c (ix2 p j) := by
  show V c main_v62 (((cfg3.win 3).blk t).view.emb (ix2 p j)) = _
  rw [emb_3]; rfl
theorem blk_4 (c : Dev nD) (t : Fin cfg3.N) (p : Fin 1) (j : Fin 128) :
    iblk3 V c 4 t (ix2 p j) = inB V c (ix2 p j) := by
  show V c main_v67 (((cfg3.win 4).blk t).view.emb (ix2 p j)) = _
  rw [emb_4]; rfl
theorem blk_5 (c : Dev nD) (t : Fin cfg3.N) (p : Fin 128) (j : Fin 128) :
    iblk3 V c 5 t (ix2 p j) = inWn V c (ix2 p j) := by
  show V c main_v66 (((cfg3.win 5).blk t).view.emb (ix2 p j)) = _
  rw [emb_5]; rfl

/-- The body's result at an element of block `t`, over the arrays. -/
theorem body_at (c : Dev nD) (t : Fin cfg3.N) (p : Fin 2000) (q : Fin 128) :
    k3_pay1 (F := Ideal) (iblk3 V c 0 t) (iblk3 V c 1 t) (iblk3 V c 2 t) (iblk3 V c 3 t) (iblk3 V c 5 t) (iblk3 V c 4 t) (ix2 p q)
      = Ideal.tanh (sageMulAt (inH V c) (inS V c) (inD V c) (inWs V c) (inB V c) (inWn V c) (row t.val (lt25 t) p) q) := by
  refine (Pay.sage3_at (iblk3 V c 0 t) (iblk3 V c 1 t) (iblk3 V c 2 t) (iblk3 V c 3 t) (iblk3 V c 5 t) (iblk3 V c 4 t) (ix2 p q)).trans ?_
  refine congrArg Ideal.tanh ?_
  refine (Pay.sagePre_apply (iblk3 V c 0 t) (iblk3 V c 1 t) (iblk3 V c 2 t) (iblk3 V c 3 t) (iblk3 V c 5 t) (iblk3 V c 4 t) p q).trans ?_
  simp only [blk_0, blk_1, blk_2, blk_3, blk_4, blk_5]
  rfl

/-- What point `t` writes back is block `t` of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x128) hz, View.ld_unit_zero (S := S128x128) hz, View.ld_unit_zero (S := S1x128) hz, View.ld_unit_zero (S := S2000x1) hz]
  funext j
  obtain ⟨p, q, rfl⟩ : ∃ (p : Fin 2000) (q : Fin 128), j = ix2 p q := ⟨j 0, j 1, eq_ix2 j⟩
  refine (body_at V c t p q).trans ?_
  show _ = G V c (((cfg3.win 6).blk t).view.emb (ix2 p q))
  rw [emb_6 t p q]
  rfl

theorem mem_blk (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v68).slice (win3_6.rect t)).set ↔ _
  rw [View.set_slice_whole, Rect.mem_set_unit]
  exact Iff.rfl

/-- Every row is in the block of the point numbered by its quotient by 2000. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : (i 0).val / 2000 < grid3.N := by rw [N_3]; omega
  obtain ⟨-, -, -, -, -, -, -, -, -, -, -, -, e0, e1⟩ := idx_facts ⟨(i 0).val / 2000, hN⟩
  refine ⟨⟨(i 0).val / 2000, hN⟩, flush3_6 _, ?_⟩
  rw [mem_blk]
  intro a
  match a with
  | ⟨0, _⟩ =>
    show win3_6.index ⟨(i 0).val / 2000, hN⟩ (0 : Fin 2) * 2000 ≤ (i 0).val ∧ (i 0).val < win3_6.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, hN⟩ (1 : Fin 2) * 128 ≤ (i 1).val ∧ (i 1).val < win3_6.index ⟨(i 0).val / 2000, hN⟩ (1 : Fin 2) * 128 + 128
    rw [e1]; omega

/-- The output array after the launch. -/
theorem final (c : Dev nD) : (dat3 V c).arrAt 6 cfg3.N = G V c :=
  (dat3 V c).arrAt_eq_of_cover 6 (G V c) (fun t _ => flushed_eq V c t) cover

end Cert.KernelIdeal.Reg3

end
-- ==== Proof.RefStages.lean ====
/-
  The reference, stage by stage, read at one element.

  Its input block at node `r`, feature `q` is the sum over `k` of tanh(row r of x · column k of W₁ + b₁ k) times
  W₂ (k, q), plus b₂ q.  Each of its three layers is act(h · Wₛ + b + (S / d) · Wₙ): S the per-destination
  sum of gathered rows (left as the gather-and-scatter term it is: both programs apply the same one),
  d the clamped in-degree broadcast along the features; the hidden layers' activation is SiLU spelt out,
  x · (1 / (1 + e⁻ˣ)).
-/
import proofs.«119482_j25864293057209_2_alg».proof.Proof.Gen.ReferenceIdeal.Read
import proofs.«119482_j25864293057209_2_alg».proof.Proof.Spec

noncomputable section

namespace Cert.ReferenceIdeal.Stage

open Cert.ReferenceIdeal Cert.ReferenceIdeal.Gen Cert.ReferenceIdeal.Read Idealize.ShloMosaic Idealize.ShloMosaic.ValueIdx Cert.Spec

abbrev A := FVec Ideal S50000x128 .f32
abbrev M := FVec Ideal S128x128 .f32
abbrev B := FVec Ideal S128 .f32
abbrev D := FVec Ideal S50000 .f32
abbrev E := (⟨S800000, .i32⟩ : BufTy).Contents (Elt Ideal)
abbrev M3 := (⟨S3x128x128, .f32⟩ : BufTy).Contents (Elt Ideal)
abbrev B3 := (⟨S3x128, .f32⟩ : BufTy).Contents (Elt Ideal)

/-- The host's matrix product of node features with a weight matrix, the bias broadcast, the degree broadcast, the constant one. -/
def dotH (h : A) (w : M) : A := Host.dotGeneral (F := Ideal) (φ₁ := .f32) (φ₂ := .f32) dot_S50000x128_S128x128_S50000x128_1_0_0_1_n_n none h w
def biasH (b : B) : A := broadcastInDim S50000x128 ![0, 1] bcast_S1x128_S50000x128_0_1 (broadcastInDim S1x128 ![1] bcast_S128_S1x128_1 b)
def degH (d : D) : A :=
  broadcastInDim S50000x128 ![0, 1] bcast_S50000x1_S50000x128_0_1 (broadcastInDim S50000x1 ![0] bcast_S50000_S50000x1_0 d)
def oneH : A := broadcastInDim S50000x128 ![] bcast_S_S50000x128 (constant (F := Ideal) S_ .f32 0x3F800000#32)

/-! ## Index arithmetic of the printed operations, at `(r, q)` -/

theorem lidx_eq (r : Fin 50000) (q k : Fin 128) : lidx_main_v0 (ix2 r q) k = ix2 r k :=
  funext fun a => Fin.ext (by match a with | ⟨0, _⟩ => rfl | ⟨1, _⟩ => rfl)
theorem ridx_eq (r : Fin 50000) (q k : Fin 128) : ridx_main_v0 (ix2 r q) k = ix2 k q :=
  funext fun a => Fin.ext (by match a with | ⟨0, _⟩ => rfl | ⟨1, _⟩ => rfl)
theorem bias_idx_eq (r : Fin 50000) (q : Fin 128) : idx_main_v1 (idx_main_v2 (ix2 r q)) = ix1 q :=
  funext fun a => Fin.ext (by match a with | ⟨0, _⟩ => rfl)

/-- A host matrix product of node features with a weight matrix at `(r, q)`. -/
theorem dot_apply (h : A) (w : M) (r : Fin 50000) (q : Fin 128) :
    dotH h w (ix2 r q) = lin h w r q := by
  have e := val_main_v0_apply h w (ix2 r q)
  unfold val_main_v0 at e
  unfold dotH
  rw [e]
  unfold lin
  refine Finset.sum_congr rfl fun k _ => ?_
  rw [lidx_eq, ridx_eq]

/-- A bias vector broadcast to every node at `(r, q)`. -/
theorem bias_apply (b : B) (r : Fin 50000) (q : Fin 128) :
    biasH b (ix2 r q) = b (ix1 q) := by
  have e := val_main_v2_apply (F := Ideal) b (ix2 r q)
  unfold val_main_v2 val_main_v1 at e
  unfold biasH
  rw [e]
  have e' := val_main_v1_apply (F := Ideal) b (idx_main_v2 (ix2 r q))
  unfold val_main_v1 at e'
  rw [e', bias_idx_eq]

/-- A per-node vector broadcast along the features at `(r, q)`. -/
theorem deg_apply (d : D) (r : Fin 50000) (q : Fin 128) :
    degH d (ix2 r q) = d (ix1 r) := by
  unfold degH
  rw [broadcastInDim_apply _ bcast_S50000x1_S50000x128_0_1 _ (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])]
  exact broadcastInDim_apply _ bcast_S50000_S50000x1_0 d (ix2 r (0 : Fin 1)) (ix1 r) (fun a => match a with
    | ⟨0, _⟩ => by show r.val = if (50000 : Nat) = 1 then 0 else r.val; rw [if_neg (by decide)])

/-! ## The input block -/

theorem fc_apply (x0 : A) (x3 : M) (x4 : B) (x5 : M) (x6 : B) (r : Fin 50000) (q : Fin 128) :
    val_main_v8 (F := Ideal) x0 x3 x4 x5 x6 (ix2 r q)
      = (∑ k : Fin 128, Ideal.tanh ((∑ j : Fin 128, x0 (ix2 r j) * x3 (ix2 j k)) + x4 (ix1 k)) * x5 (ix2 k q)) + x6 (ix1 q) := by
  show dotH (fun i => Ideal.tanh (dotH x0 x3 i + biasH x4 i)) x5 (ix2 r q) + biasH x6 (ix2 r q) = _
  rw [dot_apply, bias_apply]
  unfold lin
  refine congrArg (· + _) (Finset.sum_congr rfl fun k _ => ?_)
  show Ideal.tanh (dotH x0 x3 (ix2 r k) + biasH x4 (ix2 r k)) * _ = _
  rw [dot_apply, bias_apply]
  rfl

/-! ## A layer before its activation -/

/-- h · Wₛ + b + (S / d) · Wₙ, in the reference's operations. -/
def layerPre (h S : A) (d : D) (ws : M) (b : B) (wn : M) : A :=
  addf (F := Ideal) (addf (F := Ideal) (dotH h ws) (biasH b)) (dotH (Host.divf (F := Ideal) S (degH d)) wn)

theorem layerPre_apply (h S : A) (d : D) (ws : M) (b : B) (wn : M) (r : Fin 50000) (q : Fin 128) :
    layerPre h S d ws b wn (ix2 r q) = sageDivAt h S d ws b wn r q := by
  unfold layerPre sageDivAt
  show (dotH h ws (ix2 r q) + biasH b (ix2 r q)) + dotH (Host.divf (F := Ideal) S (degH d)) wn (ix2 r q) = _
  rw [dot_apply, bias_apply, dot_apply]
  unfold lin
  refine congrArg (_ + ·) (Finset.sum_congr rfl fun k _ => ?_)
  show Ideal.div (S (ix2 r k)) (degH d (ix2 r k)) * _ = _
  rw [deg_apply]

/-- SiLU spelt out in the host's operations is x · logistic x. -/
theorem silu_host (x : A) (i : S50000x128.Idx) :
    mulf (F := Ideal) x (Host.divf (F := Ideal) oneH (addf (F := Ideal) oneH (Host.exp (F := Ideal) (Host.negf (F := Ideal) x)))) i = silu (x i) := by
  have hc : ∀ j : S50000x128.Idx, oneH j = 1 := fun j =>
    (broadcastInDim_apply (α := EReal) _ bcast_S_S50000x128 (constant (F := Ideal) S_ .f32 0x3F800000#32) j ix0 (fun a => a.elim0)).trans ofBits_one_f32
  show x i * Ideal.div (oneH i) (oneH i + Ideal.exp (-(x i))) = _
  rw [hc]
  rfl

/-- The host's tanh is tanh. -/
theorem tanh_host (x : A) (i : S50000x128.Idx) : Host.tanh (F := Ideal) x i = Ideal.tanh (x i) := rfl

/-- The clamped degree is the same term in all three layers. -/
theorem deg2_eq (x2 : E) : val_main_v56 (F := Ideal) x2 = val_main_v24 (F := Ideal) x2 := by
  unfold val_main_v56 val_main_v55 val_main_v54 val_main_v53 val_main_v52 val_main_v51 val_main_cst_7 val_main_cst_8 val_main_cst_9
    val_main_v24 val_main_v23 val_main_v22 val_main_v21 val_main_v20 val_main_v19 val_main_cst_1 val_main_cst_2 val_main_cst_3
  rfl
theorem deg3_eq (x2 : E) : val_main_v88 (F := Ideal) x2 = val_main_v24 (F := Ideal) x2 := by
  unfold val_main_v88 val_main_v87 val_main_v86 val_main_v85 val_main_v84 val_main_v83 val_main_cst_13 val_main_cst_14 val_main_cst_15
    val_main_v24 val_main_v23 val_main_v22 val_main_v21 val_main_v20 val_main_v19 val_main_cst_1 val_main_cst_2 val_main_cst_3
  rfl

/-- The clamped degree is not zero. -/
theorem deg_ne_zero (x2 : E) (r : Fin 50000) : val_main_v24 (F := Ideal) x2 (ix1 r) ≠ 0 := by
  have h1 : val_main_v23 (F := Ideal) (ix1 r) = 1 := by
    rw [val_main_v23_apply, val_main_cst_3_apply]; exact ofBits_one_f32
  rw [val_main_v24_apply, Ideal.maximumf_def, h1]
  exact max_one_ne_zero _

/-! ## The three layers -/

theorem pre1_eq (x0 : A) (x1 x2 : E) (x3 : M) (x4 : B) (x5 : M) (x6 : B) (x7 : M3) (x8 : B3) (x9 : M3) :
    val_main_v39 (F := Ideal) x0 x1 x2 x3 x4 x5 x6 x7 x8 x9
      = layerPre (val_main_v8 (F := Ideal) x0 x3 x4 x5 x6) (val_main_v18 (F := Ideal) x0 x1 x2 x3 x4 x5 x6) (val_main_v24 (F := Ideal) x2) (val_main_v29 (F := Ideal) x7) (val_main_v32 (F := Ideal) x8) (val_main_v37 (F := Ideal) x9) := rfl
theorem out1_apply (x0 : A) (x1 x2 : E) (x3 : M) (x4 : B) (x5 : M) (x6 : B) (x7 : M3) (x8 : B3) (x9 : M3) (i : S50000x128.Idx) :
    val_main_v40 (F := Ideal) x0 x1 x2 x3 x4 x5 x6 x7 x8 x9 i = silu (val_main_v39 (F := Ideal) x0 x1 x2 x3 x4 x5 x6 x7 x8 x9 i) :=
  silu_host (val_main_v39 (F := Ideal) x0 x1 x2 x3 x4 x5 x6 x7 x8 x9) i

theorem pre2_eq (x0 : A) (x1 x2 : E) (x3 : M) (x4 : B) (x5 : M) (x6 : B) (x7 : M3) (x8 : B3) (x9 : M3) :
    val_main_v71 (F := Ideal) x0 x1 x2 x3 x4 x5 x6 x7 x8 x9
      = layerPre (val_main_v40 (F := Ideal) x0 x1 x2 x3 x4 x5 x6 x7 x8 x9) (val_main_v50 (F := Ideal) x0 x1 x2 x3 x4 x5 x6 x7 x8 x9) (val_main_v56 (F := Ideal) x2) (val_main_v61 (F := Ideal) x7) (val_main_v64 (F := Ideal) x8) (val_main_v69 (F := Ideal) x9) := rfl
theorem out2_apply (x0 : A) (x1 x2 : E) (x3 : M) (x4 : B) (x5 : M) (x6 : B) (x7 : M3) (x8 : B3) (x9 : M3) (i : S50000x128.Idx) :
    val_main_v72 (F := Ideal) x0 x1 x2 x3 x4 x5 x6 x7 x8 x9 i = silu (val_main_v71 (F := Ideal) x0 x1 x2 x3 x4 x5 x6 x7 x8 x9 i) :=
  silu_host (val_main_v71 (F := Ideal) x0 x1 x2 x3 x4 x5 x6 x7 x8 x9) i

theorem pre3_eq (x0 : A) (x1 x2 : E) (x3 : M) (x4 : B) (x5 : M) (x6 : B) (x7 : M3) (x8 : B3) (x9 : M3) :
    val_main_v103 (F := Ideal) x0 x1 x2 x3 x4 x5 x6 x7 x8 x9
      = layerPre (val_main_v72 (F := Ideal) x0 x1 x2 x3 x4 x5 x6 x7 x8 x9) (val_main_v82 (F := Ideal) x0 x1 x2 x3 x4 x5 x6 x7 x8 x9) (val_main_v88 (F := Ideal) x2) (val_main_v93 (F := Ideal) x7) (val_main_v96 (F := Ideal) x8) (val_main_v101 (F := Ideal) x9) := rfl
theorem out3_apply (x0 : A) (x1 x2 : E) (x3 : M) (x4 : B) (x5 : M) (x6 : B) (x7 : M3) (x8 : B3) (x9 : M3) (i : S50000x128.Idx) :
    val_main_v104 (F := Ideal) x0 x1 x2 x3 x4 x5 x6 x7 x8 x9 i = Ideal.tanh (val_main_v103 (F := Ideal) x0 x1 x2 x3 x4 x5 x6 x7 x8 x9 i) :=
  tanh_host (val_main_v103 (F := Ideal) x0 x1 x2 x3 x4 x5 x6 x7 x8 x9) i

end Cert.ReferenceIdeal.Stage

end
-- ==== Proof.Chain.lean ====
/-
  The idealized kernel's result is the reference's result, stage by stage.

  Launch by launch: the array a launch leaves is one whole-array function of the arrays it finds (the
  launch modules); the arrays it finds are the host operations' terms of the arguments and of the previous
  launch's output (read off the host stretch); and that function of those terms is the reference's stage,
  element by element — the matrix products and biases are the same sums, the gather-and-scatter neighbour
  sum is the same term on both sides, and the neighbour sum times the stored reciprocal degree is the
  neighbour sum divided by the degree because the clamped degree is not zero.
-/
import proofs.«119482_j25864293057209_2_alg».proof.Proof.Walk
import proofs.«119482_j25864293057209_2_alg».proof.Proof.Region0
import proofs.«119482_j25864293057209_2_alg».proof.Proof.Region1
import proofs.«119482_j25864293057209_2_alg».proof.Proof.Region2
import proofs.«119482_j25864293057209_2_alg».proof.Proof.Region3
import proofs.«119482_j25864293057209_2_alg».proof.Proof.RefStages
import Idealize.ShloMosaic.Lib.StableHlo.Run

set_option maxRecDepth 16384

noncomputable section

namespace Cert.KernelIdeal.Chain

open Cert.KernelIdeal Cert.KernelIdeal.Gen Cert.KernelIdeal.Walk Idealize.ShloMosaic Idealize.ShloMosaic.TcCoe Idealize.ShloMosaic.ValueIdx
open Idealize.SL.Sem Idealize.ShloMosaic.StableHlo Cert.Spec
open Cert.ReferenceIdeal.Read (val_main_v8 val_main_v18 val_main_v23 val_main_v24 val_main_v29 val_main_v32 val_main_v37 val_main_v39 val_main_v40
  val_main_v50 val_main_v56 val_main_v61 val_main_v64 val_main_v69 val_main_v71 val_main_v72
  val_main_v82 val_main_v88 val_main_v93 val_main_v96 val_main_v101 val_main_v103 val_main_v104 val_main_v23_apply val_main_cst_3_apply)
open Cert.ReferenceIdeal.Stage (layerPre layerPre_apply fc_apply out1_apply out2_apply out3_apply pre1_eq pre2_eq pre3_eq deg2_eq deg3_eq deg_ne_zero)

variable (m : (ℓ : Loc nD τ sig) → Buf (Elt Ideal) ℓ) (ρ : Dev nD → PrngReg)

/-- The argument arrays at launch. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

/-! ## The shared facts: a bias row, the reciprocal-degree column, a layer's two forms -/

/-- A bias vector reshaped to one row reads the vector. -/
theorem row_apply (b : S128.Idx → EReal) (q : Fin 128) :
    shapeCast S1x128 b shapeCasts_S128_S1x128 (ix2 (0 : Fin 1) q) = b (ix1 q) :=
  shapeCast_a_1a_apply b shapeCasts_S128_S1x128 0 q

/-- The host's quotient of two arrays at an element. -/
theorem hostDivf_at {s : Shape} (a b : FVec Ideal s .f32) (i : s.Idx) : Host.divf (F := Ideal) a b i = Ideal.div (a i) (b i) := rfl

/-- The reciprocal-degree column reads one over the clamped degree. -/
theorem col_apply (x2 : S800000.Idx → BitVec 32) (r : Fin 50000) :
    shapeCast S50000x1 (Host.divf (F := Ideal) (φ := .f32) (val_main_v23 (F := Ideal)) (val_main_v24 (F := Ideal) x2)) shapeCasts_S50000_S50000x1 (ix2 r (0 : Fin 1))
      = Ideal.div 1 (val_main_v24 (F := Ideal) x2 (ix1 r)) := by
  have h1 : val_main_v23 (F := Ideal) (ix1 r) = 1 := by
    rw [val_main_v23_apply, val_main_cst_3_apply]; exact ofBits_one_f32
  rw [shapeCast_a_a1_apply, hostDivf_at, h1]

/-- A layer in the kernel's form is the layer in the reference's form, under any activation. -/
theorem layer_eq (act : EReal → EReal) (h S : S50000x128.Idx → EReal) (invd : S50000x1.Idx → EReal) (x2 : S800000.Idx → BitVec 32)
    (ws : S128x128.Idx → EReal) (brow : S1x128.Idx → EReal) (b : S128.Idx → EReal) (wn : S128x128.Idx → EReal)
    (hinv : ∀ r : Fin 50000, invd (ix2 r (0 : Fin 1)) = Ideal.div 1 (val_main_v24 (F := Ideal) x2 (ix1 r)))
    (hb : ∀ q : Fin 128, brow (ix2 (0 : Fin 1) q) = b (ix1 q)) :
    (fun i : S50000x128.Idx => act (sageMulAt h S invd ws brow wn (i 0) (i 1)))
      = fun i => act (layerPre h S (val_main_v24 (F := Ideal) x2) ws b wn i) := by
  funext i
  obtain ⟨r, q, rfl⟩ : ∃ (r : Fin 50000) (q : Fin 128), i = ix2 r q := ⟨i 0, i 1, eq_ix2 i⟩
  rw [layerPre_apply]
  exact congrArg act (sageMulAt_eq_sageDivAt h S invd _ ws brow b wn r q (hinv r) (deg_ne_zero x2 r) (hb q))

/-- The input block with its biases given as reshaped vectors. -/
theorem fcAt_rows (x : S50000x128.Idx → EReal) (w1 : S128x128.Idx → EReal) (b1 b2 : S128.Idx → EReal) (w2 : S128x128.Idx → EReal)
    (r : Fin 50000) (q : Fin 128) :
    fcAt x w1 (shapeCast S1x128 b1 shapeCasts_S128_S1x128) w2 (shapeCast S1x128 b2 shapeCasts_S128_S1x128) r q
      = (∑ k : Fin 128, Ideal.tanh ((∑ j : Fin 128, x (ix2 r j) * w1 (ix2 j k)) + b1 (ix1 k)) * w2 (ix2 k q)) + b2 (ix1 q) := by
  unfold fcAt
  rw [row_apply]
  refine congrArg (· + _) (Finset.sum_congr rfl fun k _ => ?_)
  rw [row_apply]

/-! ## The first launch -/

theorem V1_x (c : Dev nD) : Reg0.inX (V1 m ρ) c = a0 m c := W1_arg0 m ρ c
theorem V1_w1 (c : Dev nD) : Reg0.inW1 (V1 m ρ) c = a3 m c := W1_arg3 m ρ c
theorem V1_w2 (c : Dev nD) : Reg0.inW2 (V1 m ρ) c = a5 m c := W1_arg5 m ρ c
theorem V1_b1 (c : Dev nD) : Reg0.inB1 (V1 m ρ) c = shapeCast S1x128 (a4 m c) shapeCasts_S128_S1x128 := by
  show StableHlo.after hostOps0 (W0 m ρ c) (Proc.devRef .tc main_v0) = _
  after_results
  rfl
theorem V1_b2 (c : Dev nD) : Reg0.inB2 (V1 m ρ) c = shapeCast S1x128 (a6 m c) shapeCasts_S128_S1x128 := by
  show StableHlo.after hostOps0 (W0 m ρ c) (Proc.devRef .tc main_v1) = _
  after_results
  rfl

/-- The first launch leaves the reference's input block. -/
theorem out0 (c : Dev nD) : W2 m ρ c (Proc.devRef .tc main_v2) = val_main_v8 (F := Ideal) (a0 m c) (a3 m c) (a4 m c) (a5 m c) (a6 m c) := by
  refine ((W2_arr m ρ c 5).trans (Reg0.final (V1 m ρ) c)).trans ?_
  funext i
  obtain ⟨r, q, rfl⟩ : ∃ (r : Fin 50000) (q : Fin 128), i = ix2 r q := ⟨i 0, i 1, eq_ix2 i⟩
  rw [fc_apply]
  show fcAt (Reg0.inX (V1 m ρ) c) (Reg0.inW1 (V1 m ρ) c) (Reg0.inB1 (V1 m ρ) c) (Reg0.inW2 (V1 m ρ) c) (Reg0.inB2 (V1 m ρ) c) r q = _
  rw [V1_x, V1_w1, V1_w2, V1_b1, V1_b2]
  exact fcAt_rows (a0 m c) (a3 m c) (a4 m c) (a6 m c) (a5 m c) r q

/-! ## The first SAGE launch -/

theorem V3_h (c : Dev nD) : Reg1.inH (V3 m ρ) c = val_main_v8 (F := Ideal) (a0 m c) (a3 m c) (a4 m c) (a5 m c) (a6 m c) :=
  (W3_v2 m ρ c).trans (out0 m ρ c)
set_option maxRecDepth 65536 in
set_option maxHeartbeats 4000000 in
theorem V3_s (c : Dev nD) : Reg1.inS (V3 m ρ) c = val_main_v18 (F := Ideal) (a0 m c) (a1 m c) (a2 m c) (a3 m c) (a4 m c) (a5 m c) (a6 m c) := by
  show StableHlo.after hostOps1 (W2 m ρ c) (Proc.devRef .tc main_v22) = _
  after_results_simp
  rw [W2_arg1, W2_arg2, out0]
  rfl
set_option maxHeartbeats 4000000 in
theorem V3_d (c : Dev nD) : Reg1.inD (V3 m ρ) c
    = shapeCast S50000x1 (Host.divf (F := Ideal) (φ := .f32) (val_main_v23 (F := Ideal)) (val_main_v24 (F := Ideal) (a2 m c))) shapeCasts_S50000_S50000x1 := by
  show StableHlo.after hostOps1 (W2 m ρ c) (Proc.devRef .tc main_v11) = _
  after_results_simp
  rw [W2_arg2]
  rfl
set_option maxHeartbeats 4000000 in
theorem V3_ws (c : Dev nD) : Reg1.inWs (V3 m ρ) c = val_main_v29 (F := Ideal) (a7 m c) := by
  show StableHlo.after hostOps1 (W2 m ρ c) (Proc.devRef .tc main_v24) = _
  after_results_simp
  rw [W2_arg7]
  rfl
set_option maxHeartbeats 4000000 in
theorem V3_b (c : Dev nD) : Reg1.inB (V3 m ρ) c = shapeCast S1x128 (val_main_v32 (F := Ideal) (a8 m c)) shapeCasts_S128_S1x128 := by
  show StableHlo.after hostOps1 (W2 m ρ c) (Proc.devRef .tc main_v29) = _
  after_results_simp
  rw [W2_arg8]
  rfl
set_option maxHeartbeats 4000000 in
theorem V3_wn (c : Dev nD) : Reg1.inWn (V3 m ρ) c = val_main_v37 (F := Ideal) (a9 m c) := by
  show StableHlo.after hostOps1 (W2 m ρ c) (Proc.devRef .tc main_v28) = _
  after_results_simp
  rw [W2_arg9]
  rfl

/-- The first SAGE launch leaves the reference's first layer. -/
theorem out1 (c : Dev nD) : W4 m ρ c (Proc.devRef .tc main_v30) = val_main_v40 (F := Ideal) (a0 m c) (a1 m c) (a2 m c) (a3 m c) (a4 m c) (a5 m c) (a6 m c) (a7 m c) (a8 m c) (a9 m c) := by
  refine ((W4_arr m ρ c 6).trans (Reg1.final (V3 m ρ) c)).trans ?_
  unfold Reg1.G
  rw [V3_h, V3_s, V3_ws, V3_wn]
  refine (layer_eq silu _ _ (Reg1.inD (V3 m ρ) c) (a2 m c) _ (Reg1.inB (V3 m ρ) c) (val_main_v32 (F := Ideal) (a8 m c)) _
    (fun r => by rw [V3_d]; exact col_apply _ r) (fun q => by rw [V3_b]; exact row_apply _ q)).trans ?_
  funext i
  rw [out1_apply, pre1_eq]

/-! ## SAGE launch 2 -/

theorem V5_h (c : Dev nD) : Reg2.inH (V5 m ρ) c = val_main_v40 (F := Ideal) (a0 m c) (a1 m c) (a2 m c) (a3 m c) (a4 m c) (a5 m c) (a6 m c) (a7 m c) (a8 m c) (a9 m c) :=
  (W5_v30 m ρ c).trans (out1 m ρ c)
set_option maxRecDepth 65536 in
set_option maxHeartbeats 4000000 in
theorem V5_s (c : Dev nD) : Reg2.inS (V5 m ρ) c = val_main_v50 (F := Ideal) (a0 m c) (a1 m c) (a2 m c) (a3 m c) (a4 m c) (a5 m c) (a6 m c) (a7 m c) (a8 m c) (a9 m c) := by
  show StableHlo.after hostOps2 (W4 m ρ c) (Proc.devRef .tc main_v41) = _
  after_results_simp
  rw [W4_arg1, W4_arg2, out1]
  rfl
theorem V5_d (c : Dev nD) : Reg2.inD (V5 m ρ) c
    = shapeCast S50000x1 (Host.divf (F := Ideal) (φ := .f32) (val_main_v23 (F := Ideal)) (val_main_v24 (F := Ideal) (a2 m c))) shapeCasts_S50000_S50000x1 :=
  (W5_v11 m ρ c).trans (V3_d m ρ c)
set_option maxHeartbeats 4000000 in
theorem V5_ws (c : Dev nD) : Reg2.inWs (V5 m ρ) c = val_main_v61 (F := Ideal) (a7 m c) := by
  show StableHlo.after hostOps2 (W4 m ρ c) (Proc.devRef .tc main_v43) = _
  after_results_simp
  rw [W4_arg7]
  rfl
set_option maxHeartbeats 4000000 in
theorem V5_b (c : Dev nD) : Reg2.inB (V5 m ρ) c = shapeCast S1x128 (val_main_v64 (F := Ideal) (a8 m c)) shapeCasts_S128_S1x128 := by
  show StableHlo.after hostOps2 (W4 m ρ c) (Proc.devRef .tc main_v48) = _
  after_results_simp
  rw [W4_arg8]
  rfl
set_option maxHeartbeats 4000000 in
theorem V5_wn (c : Dev nD) : Reg2.inWn (V5 m ρ) c = val_main_v69 (F := Ideal) (a9 m c) := by
  show StableHlo.after hostOps2 (W4 m ρ c) (Proc.devRef .tc main_v47) = _
  after_results_simp
  rw [W4_arg9]
  rfl

/-- SAGE launch 2 leaves the reference's layer 2. -/
theorem out2 (c : Dev nD) : W6 m ρ c (Proc.devRef .tc main_v49) = val_main_v72 (F := Ideal) (a0 m c) (a1 m c) (a2 m c) (a3 m c) (a4 m c) (a5 m c) (a6 m c) (a7 m c) (a8 m c) (a9 m c) := by
  refine ((W6_arr m ρ c 6).trans (Reg2.final (V5 m ρ) c)).trans ?_
  unfold Reg2.G
  rw [V5_h, V5_s, V5_ws, V5_wn]
  refine (layer_eq silu _ _ (Reg2.inD (V5 m ρ) c) (a2 m c) _ (Reg2.inB (V5 m ρ) c) (val_main_v64 (F := Ideal) (a8 m c)) _
    (fun r => by rw [V5_d]; exact col_apply _ r) (fun q => by rw [V5_b]; exact row_apply _ q)).trans ?_
  funext i
  rw [out2_apply, pre2_eq, deg2_eq]

/-! ## SAGE launch 3 -/

theorem V7_h (c : Dev nD) : Reg3.inH (V7 m ρ) c = val_main_v72 (F := Ideal) (a0 m c) (a1 m c) (a2 m c) (a3 m c) (a4 m c) (a5 m c) (a6 m c) (a7 m c) (a8 m c) (a9 m c) :=
  (W7_v49 m ρ c).trans (out2 m ρ c)
set_option maxRecDepth 65536 in
set_option maxHeartbeats 4000000 in
theorem V7_s (c : Dev nD) : Reg3.inS (V7 m ρ) c = val_main_v82 (F := Ideal) (a0 m c) (a1 m c) (a2 m c) (a3 m c) (a4 m c) (a5 m c) (a6 m c) (a7 m c) (a8 m c) (a9 m c) := by
  show StableHlo.after hostOps3 (W6 m ρ c) (Proc.devRef .tc main_v60) = _
  after_results_simp
  rw [W6_arg1, W6_arg2, out2]
  rfl
theorem V7_d (c : Dev nD) : Reg3.inD (V7 m ρ) c
    = shapeCast S50000x1 (Host.divf (F := Ideal) (φ := .f32) (val_main_v23 (F := Ideal)) (val_main_v24 (F := Ideal) (a2 m c))) shapeCasts_S50000_S50000x1 :=
  (W7_v11 m ρ c).trans (V3_d m ρ c)
set_option maxHeartbeats 4000000 in
theorem V7_ws (c : Dev nD) : Reg3.inWs (V7 m ρ) c = val_main_v93 (F := Ideal) (a7 m c) := by
  show StableHlo.after hostOps3 (W6 m ρ c) (Proc.devRef .tc main_v62) = _
  after_results_simp
  rw [W6_arg7]
  rfl
set_option maxHeartbeats 4000000 in
theorem V7_b (c : Dev nD) : Reg3.inB (V7 m ρ) c = shapeCast S1x128 (val_main_v96 (F := Ideal) (a8 m c)) shapeCasts_S128_S1x128 := by
  show StableHlo.after hostOps3 (W6 m ρ c) (Proc.devRef .tc main_v67) = _
  after_results_simp
  rw [W6_arg8]
  rfl
set_option maxHeartbeats 4000000 in
theorem V7_wn (c : Dev nD) : Reg3.inWn (V7 m ρ) c = val_main_v101 (F := Ideal) (a9 m c) := by
  show StableHlo.after hostOps3 (W6 m ρ c) (Proc.devRef .tc main_v66) = _
  after_results_simp
  rw [W6_arg9]
  rfl

/-- SAGE launch 3 leaves the reference's layer 3. -/
theorem out3 (c : Dev nD) : W8 m ρ c (Proc.devRef .tc main_v68) = val_main_v104 (F := Ideal) (a0 m c) (a1 m c) (a2 m c) (a3 m c) (a4 m c) (a5 m c) (a6 m c) (a7 m c) (a8 m c) (a9 m c) := by
  refine ((W8_arr m ρ c 6).trans (Reg3.final (V7 m ρ) c)).trans ?_
  unfold Reg3.G
  rw [V7_h, V7_s, V7_ws, V7_wn]
  refine (layer_eq Ideal.tanh _ _ (Reg3.inD (V7 m ρ) c) (a2 m c) _ (Reg3.inB (V7 m ρ) c) (val_main_v96 (F := Ideal) (a8 m c)) _
    (fun r => by rw [V7_d]; exact col_apply _ r) (fun q => by rw [V7_b]; exact row_apply _ q)).trans ?_
  funext i
  rw [out3_apply, pre3_eq, deg3_eq]

end Cert.KernelIdeal.Chain

end
-- ==== Proof.lean ====
/-
  A three-layer GraphSAGE network with mean aggregation over 50000 nodes and 800000 edges: an input block
  z = tanh(x · W₁ + b₁) · W₂ + b₂, then three times h ← act(h · Wₛ + b + n · Wₙ), where n is, per destination
  node, the sum of the source rows of the edges into it divided by its in-degree clamped below by one; the
  activation is SiLU twice, then tanh.

  The kernel runs the dense steps as four launches over blocks of 2000 nodes and leaves the gather and the
  scatter-add to the host, computes the reciprocal of the clamped degree once, and multiplies by it where the
  reference divides.  Read over the extended reals the two programs compute the same array:
  • a block's matrix product into a zero accumulator and the host's product of the whole array are the same
    sum over the 128 features, row by row, and the 25 blocks tile the rows;
  • every change of float format is the identity;
  • the gather-and-scatter neighbour sum is the same term of the same operands on both sides;
  • s · (1 / d) = s / d for every extended real s as soon as d ≠ 0, and d = max(·, 1) ≥ 1 — so no finiteness
    of the inputs is used;
  • the kernel's logistic is by definition 1 / (1 + e⁻ˣ), which is what the reference spells out.
  The frames of the two kernel programs are the generated ones; the reference's frame is its run with the
  result dropped; the idealization rewrote nothing.
-/
import proofs.«119482_j25864293057209_2_alg».proof.Defs
import proofs.«119482_j25864293057209_2_alg».proof.Proof.Gen.Kernel
import proofs.«119482_j25864293057209_2_alg».proof.Proof.Gen.Kernel.Skeleton
import proofs.«119482_j25864293057209_2_alg».proof.Proof.Gen.Kernel.Launch
import proofs.«119482_j25864293057209_2_alg».proof.Proof.Gen.Kernel.Points
import proofs.«119482_j25864293057209_2_alg».proof.Proof.Gen.Kernel.Frame
import proofs.«119482_j25864293057209_2_alg».proof.Proof.Gen.KernelIdeal
import proofs.«119482_j25864293057209_2_alg».proof.Proof.Gen.KernelIdeal.Skeleton
import proofs.«119482_j25864293057209_2_alg».proof.Proof.Gen.KernelIdeal.Launch
import proofs.«119482_j25864293057209_2_alg».proof.Proof.Gen.KernelIdeal.Points
import proofs.«119482_j25864293057209_2_alg».proof.Proof.Gen.KernelIdeal.Frame
import proofs.«119482_j25864293057209_2_alg».proof.Proof.Gen.ReferenceIdeal
import proofs.«119482_j25864293057209_2_alg».proof.Proof.Gen.ReferenceIdeal.Run
import proofs.«119482_j25864293057209_2_alg».proof.Proof.Gen.ReferenceIdeal.Read
import proofs.«119482_j25864293057209_2_alg».proof.Proof.Gen.Pre_finite_inputs
import proofs.«119482_j25864293057209_2_alg».proof.Proof.KernelRun
import proofs.«119482_j25864293057209_2_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with the same result array: the kernel's run names its result as what the last
    launch leaves, the reference's run names its composed term, and the two are equal stage by stage. -/
theorem algebraic : Cert.algebraic_KernelIdeal_ReferenceIdeal := by
  intro m ρ m' ρ' _ hagree
  refine ⟨fun c => Cert.KernelIdeal.Gen.W8 m ρ c (Proc.devRef .tc Cert.KernelIdeal.main_v68), Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v104_eq, h0, h1, h2, h3, h4, h5, h6, h7, h8, h9]
  exact (Cert.KernelIdeal.Chain.out3 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
